-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x5 : Shape := ⟨2, ![8388608, 5]⟩
abbrev S10x5 : Shape := ⟨2, ![10, 5]⟩
abbrev S10 : Shape := ⟨1, ![10]⟩
abbrev S_ : Shape := ⟨0, ![]⟩

class Facts : Prop where
  bcast_S_S8388608x5 : S_.BroadcastsInDim S8388608x5 (![] : Fin 0 → Fin S8388608x5.rank)
  reducesTo_S8388608x5_S_d0_1 : S8388608x5.ReducesTo [0, 1] S_
  h_S_ : 0 < S_.numel
  bcast_S_S10x5 : S_.BroadcastsInDim S10x5 (![] : Fin 0 → Fin S10x5.rank)
  reducesTo_S10x5_S_d0_1 : S10x5.ReducesTo [0, 1] S_
  bcast_S_S10 : S_.BroadcastsInDim S10 (![] : Fin 0 → Fin S10.rank)
  reducesTo_S10_S_d0 : S10.ReducesTo [0] S_

variable [Facts]

def fn {F : FTy → Type} [FloatOps F] (main_arg0 : FVec F S8388608x5 .f32) (main_arg1 : FVec F S10x5 .f32) (main_arg2 : FVec F S10 .f32) : IVec S_ 1 :=
  let main_v0 : FVec F S8388608x5 .f32 := Host.absf main_arg0
  let main_cst : FVec F S_ .f32 := constant S_ .f32 0x7F800000#32
  let main_v1 : FVec F S8388608x5 .f32 := broadcastInDim S8388608x5 ![] bcast_S_S8388608x5 main_cst
  let main_v2 : IVec S8388608x5 1 := cmpf .olt main_v0 main_v1
  let main_c : IVec S_ 1 := constantI S_ 1 1#1
  let main_v3 : IVec S_ 1 := (fun x v => Host.reduce IntOp.andi x v reducesTo_S8388608x5_S_d0_1 h_S_) main_v2 main_c
  let main_v4 : FVec F S10x5 .f32 := Host.absf main_arg1
  let main_cst_0 : FVec F S_ .f32 := constant S_ .f32 0x7F800000#32
  let main_v5 : FVec F S10x5 .f32 := broadcastInDim S10x5 ![] bcast_S_S10x5 main_cst_0
  let main_v6 : IVec S10x5 1 := cmpf .olt main_v4 main_v5
  let main_c_1 : IVec S_ 1 := constantI S_ 1 1#1
  let main_v7 : IVec S_ 1 := (fun x v => Host.reduce IntOp.andi x v reducesTo_S10x5_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  main_v13
-- ==== Kernel.lean ====
abbrev S8388608x5 : Shape := ⟨2, ![8388608, 5]⟩
abbrev S10x5 : Shape := ⟨2, ![10, 5]⟩
abbrev S10 : Shape := ⟨1, ![10]⟩
abbrev S1x1 : Shape := ⟨2, ![1, 1]⟩
abbrev S16384x5 : Shape := ⟨2, ![16384, 5]⟩
abbrev S1x16384x5 : Shape := ⟨3, ![1, 16384, 5]⟩
abbrev S1 : Shape := ⟨1, ![1]⟩
abbrev S1x1x1 : Shape := ⟨3, ![1, 1, 1]⟩
abbrev S_ : Shape := ⟨0, ![]⟩
abbrev S1x10 : Shape := ⟨2, ![1, 10]⟩
abbrev S8388608x10 : Shape := ⟨2, ![8388608, 10]⟩
abbrev S8192x5 : Shape := ⟨2, ![8192, 5]⟩
abbrev S8192x10 : Shape := ⟨2, ![8192, 10]⟩

abbrev nBuf : Space → Nat
  | .hbm => 48
  | .vmem => 12
  | .smem => 0
  | _ => 0

abbrev bufTy : (tb : Table) → Fin (tcTables nBuf tb) → BufTy
  | .hbm, ⟨0, _⟩ => ⟨S8388608x5, .f32⟩
  | .hbm, ⟨1, _⟩ => ⟨S10x5, .f32⟩
  | .hbm, ⟨2, _⟩ => ⟨S10, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S10x5, .f32⟩
  | .hbm, ⟨28, _⟩ => ⟨S10x5, .f32⟩
  | .hbm, ⟨29, _⟩ => ⟨S10x5, .f32⟩
  | .hbm, ⟨30, _⟩ => ⟨S10x5, .f32⟩
  | .hbm, ⟨31, _⟩ => ⟨S10x5, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S10x5, .f32⟩
  | .hbm, ⟨36, _⟩ => ⟨S10x5, .f32⟩
  | .hbm, ⟨37, _⟩ => ⟨S_, .f32⟩
  | .hbm, ⟨38, _⟩ => ⟨S10x5, .f32⟩
  | .hbm, ⟨39, _⟩ => ⟨S10x5, .f32⟩
  | .hbm, ⟨40, _⟩ => ⟨S10x5, .f32⟩
  | .hbm, ⟨41, _⟩ => ⟨S10x5, .f32⟩
  | .hbm, ⟨42, _⟩ => ⟨S10x5, .f32⟩
  | .hbm, ⟨43, _⟩ => ⟨S10x5, .f32⟩
  | .hbm, ⟨44, _⟩ => ⟨S1x1, .f32⟩
  | .hbm, ⟨45, _⟩ => ⟨S1x1, .f32⟩
  | .hbm, ⟨46, _⟩ => ⟨S1x10, .f32⟩
  | .hbm, ⟨47, _⟩ => ⟨S8388608x10, .f32⟩
  | .local _ .vmem, ⟨0, _⟩ => ⟨S16384x5, .f32⟩
  | .local _ .vmem, ⟨1, _⟩ => ⟨S16384x5, .f32⟩
  | .local _ .vmem, ⟨2, _⟩ => ⟨S1x1, .f32⟩
  | .local _ .vmem, ⟨3, _⟩ => ⟨S1x1, .f32⟩
  | .local _ .vmem, ⟨4, _⟩ => ⟨S8192x5, .f32⟩
  | .local _ .vmem, ⟨5, _⟩ => ⟨S8192x5, .f32⟩
  | .local _ .vmem, ⟨6, _⟩ => ⟨S1x1, .f32⟩
  | .local _ .vmem, ⟨7, _⟩ => ⟨S1x1, .f32⟩
  | .local _ .vmem, ⟨8, _⟩ => ⟨S10x5, .f32⟩
  | .local _ .vmem, ⟨9, _⟩ => ⟨S1x10, .f32⟩
  | .local _ .vmem, ⟨10, _⟩ => ⟨S8192x10, .f32⟩
  | .local _ .vmem, ⟨11, _⟩ => ⟨S8192x10, .f32⟩
  | _, _ => ⟨S8388608x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_cst_6 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![512], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_2 : BitVec 32 := 0#32
  let v13 : BitVec 1 := Scalar.cmpi .ne v12 c0_i32_2
  v13

def k0_cond2 (i : grid0.Coords) : BitVec 1 :=
  let arg0 : BitVec 32 := BitVec.ofNat 32 (i 0).val
  let c0_i32_3 : BitVec 32 := 0#32
  let v14 : BitVec 1 := Scalar.cmpi .ne arg0 c0_i32_3
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1024], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S16384x5_S16384x5_0_0 : ∀ a, (![0, 0] : Fin 2 → Nat) a + S16384x5.size a ≤ S16384x5.size a
  h_S16384x5 : 0 < S16384x5.numel
  shapeCasts_S16384x5_S1x16384x5 : S16384x5.ShapeCasts S1x16384x5
  reduces_S1x16384x5_S1 : S1x16384x5.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  reducesTo_S10x5_S_d0_1 : S10x5.ReducesTo [0, 1] S_
  h_S_ : 0 < S_.numel
  bcast_S_S10x5 : S_.BroadcastsInDim S10x5 (![] : Fin 0 → Fin S10x5.rank)
  shapeCasts_S_S1x1 : S_.ShapeCasts S1x1
  shapeCasts_S10_S1x10 : S10.ShapeCasts S1x10
  inpos_S1x1_p0_0 : ∀ a, (![0, 0] : Fin 2 → Nat) a < S1x1.size a
  inb_S8192x5_S8192x5_0_0 : ∀ a, (![0, 0] : Fin 2 → Nat) a + S8192x5.size a ≤ S8192x5.size a
  h_S8192x5 : 0 < S8192x5.numel
  inb_S10x5_S10x5_0_0 : ∀ a, (![0, 0] : Fin 2 → Nat) a + S10x5.size a ≤ S10x5.size a
  h_S10x5 : 0 < S10x5.numel
  shapeCasts_S10x5_S10x5 : S10x5.ShapeCasts S10x5
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S8192x10 : S1x10.Broadcasts S8192x10
  inb_S8192x10_S8192x10_0_0 : ∀ a, (![0, 0] : Fin 2 → Nat) a + S8192x10.size a ≤ S8192x10.size a
  h_S8192x10 : 0 < S8192x10.numel
  dot_S8192x5_S10x5_S8192x10_1_1_0_0_n_n_wf : DotDims.WF S8192x5 S10x5 S8192x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x5.size a ≤ S8388608x5.size a
  hwx0_0 : ∀ i : grid0.Coords, EltTy.bits .f32 = 32 ∨ (Rect.block (s := S8388608x5) S16384x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x5.size a ≤ S8388608x5.size a
  hwx1_0 : ∀ i : grid1.Coords, EltTy.bits .f32 = 32 ∨ (Rect.block (s := S8388608x5) S8192x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10x5.size a ≤ S10x5.size a
  hwx1_3 : ∀ i : grid1.Coords, EltTy.bits .f32 = 32 ∨ (Rect.block (s := S10x5) S10x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x10.size a ≤ S8388608x10.size a
  hwx1_5 : ∀ i : grid1.Coords, EltTy.bits .f32 = 32 ∨ (Rect.block (s := S8388608x10) S8192x10.size (cc1_transform_5 i) (hinb1_5 i)).WholeWords (EltTy.packing .f32)

variable [Facts₀]

def dot_S8192x5_S10x5_S8192x10_1_1_0_0_n_n : DotDims S8192x5 S10x5 S8192x10 where
  lhsContracting := [1]
  rhsContracting := [1]
  lhsNonContracting := [0]
  rhsNonContracting := [0]
  lhsBatch := []
  rhsBatch := []
  wf := dot_S8192x5_S10x5_S8192x10_1_1_0_0_n_n_wf

abbrev win0_0 : Pipeline.Window sig grid0 :=
  Pipeline.Window.ofSpec (Memref.whole main_arg0) S16384x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_arg0) S8192x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S10x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S8192x10.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8388608x5 : Shape := ⟨2, ![8388608, 5]⟩
abbrev S10x5 : Shape := ⟨2, ![10, 5]⟩
abbrev S10 : Shape := ⟨1, ![10]⟩
abbrev S_ : Shape := ⟨0, ![]⟩
abbrev S8388608x10 : Shape := ⟨2, ![8388608, 10]⟩
abbrev S1x10 : Shape := ⟨2, ![1, 10]⟩

abbrev nBuf : Space → Nat
  | .hbm => 65
  | .vmem => 0
  | .smem => 0
  | _ => 0

abbrev bufTy : (tb : Table) → Fin (tcTables nBuf tb) → BufTy
  | .hbm, ⟨0, _⟩ => ⟨S8388608x5, .f32⟩
  | .hbm, ⟨1, _⟩ => ⟨S10x5, .f32⟩
  | .hbm, ⟨2, _⟩ => ⟨S10, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8388608x5, .f32⟩
  | .hbm, ⟨16, _⟩ => ⟨S8388608x5, .f32⟩
  | .hbm, ⟨17, _⟩ => ⟨S8388608x5, .f32⟩
  | .hbm, ⟨18, _⟩ => ⟨S8388608x5, .f32⟩
  | .hbm, ⟨19, _⟩ => ⟨S8388608x5, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8388608x5, .f32⟩
  | .hbm, ⟨24, _⟩ => ⟨S8388608x5, .f32⟩
  | .hbm, ⟨25, _⟩ => ⟨S_, .f32⟩
  | .hbm, ⟨26, _⟩ => ⟨S8388608x5, .f32⟩
  | .hbm, ⟨27, _⟩ => ⟨S8388608x5, .f32⟩
  | .hbm, ⟨28, _⟩ => ⟨S8388608x5, .f32⟩
  | .hbm, ⟨29, _⟩ => ⟨S8388608x5, .f32⟩
  | .hbm, ⟨30, _⟩ => ⟨S8388608x5, .f32⟩
  | .hbm, ⟨31, _⟩ => ⟨S8388608x5, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S10x5, .f32⟩
  | .hbm, ⟨45, _⟩ => ⟨S10x5, .f32⟩
  | .hbm, ⟨46, _⟩ => ⟨S10x5, .f32⟩
  | .hbm, ⟨47, _⟩ => ⟨S10x5, .f32⟩
  | .hbm, ⟨48, _⟩ => ⟨S10x5, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S10x5, .f32⟩
  | .hbm, ⟨53, _⟩ => ⟨S10x5, .f32⟩
  | .hbm, ⟨54, _⟩ => ⟨S_, .f32⟩
  | .hbm, ⟨55, _⟩ => ⟨S10x5, .f32⟩
  | .hbm, ⟨56, _⟩ => ⟨S10x5, .f32⟩
  | .hbm, ⟨57, _⟩ => ⟨S10x5, .f32⟩
  | .hbm, ⟨58, _⟩ => ⟨S10x5, .f32⟩
  | .hbm, ⟨59, _⟩ => ⟨S10x5, .f32⟩
  | .hbm, ⟨60, _⟩ => ⟨S10x5, .f32⟩
  | .hbm, ⟨61, _⟩ => ⟨S8388608x10, .f32⟩
  | .hbm, ⟨62, _⟩ => ⟨S1x10, .f32⟩
  | .hbm, ⟨63, _⟩ => ⟨S8388608x10, .f32⟩
  | .hbm, ⟨64, _⟩ => ⟨S8388608x10, .f32⟩
  | _, _ => ⟨S8388608x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_cst_10 : Ref sig .tc := ⟨.hbm, 50, rfl⟩
abbrev main_call5_v0 : Ref sig .tc := ⟨.hbm, 51, rfl⟩
abbrev main_call5_v1 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]

class Facts₀ : Prop where
  reducesTo_S8388608x5_S_d0_1 : S8388608x5.ReducesTo [0, 1] S_
  h_S_ : 0 < S_.numel
  bcast_S_S8388608x5 : S_.BroadcastsInDim S8388608x5 (![] : Fin 0 → Fin S8388608x5.rank)
  reducesTo_S10x5_S_d0_1 : S10x5.ReducesTo [0, 1] S_
  bcast_S_S10x5 : S_.BroadcastsInDim S10x5 (![] : Fin 0 → Fin S10x5.rank)
  bcast_S10_S1x10_1 : S10.BroadcastsInDim S1x10 (![1] : Fin 1 → Fin S1x10.rank)
  bcast_S1x10_S8388608x10_0_1 : S1x10.BroadcastsInDim S8388608x10 (![0, 1] : Fin 2 → Fin S8388608x10.rank)
  dot_S8388608x5_S10x5_S8388608x10_1_1_0_0_n_n_wf : DotDims.WF S8388608x5 S10x5 S8388608x10 [1] [1] [0] [0] [] []

variable [Facts₀]

def dot_S8388608x5_S10x5_S8388608x10_1_1_0_0_n_n : DotDims S8388608x5 S10x5 S8388608x10 where
  lhsContracting := [1]
  rhsContracting := [1]
  lhsNonContracting := [0]
  rhsNonContracting := [0]
  lhsBatch := []
  rhsBatch := []
  wf := dot_S8388608x5_S10x5_S8388608x10_1_1_0_0_n_n_wf

class Facts : Prop extends Facts₀ where

variable [Facts]
-- ==== Proof.K.Region1.lean ====
/-
  The second pallas_call on one core, at any float instance: what its body does to the staging buffers at a
  grid point, and from that the body obligation of its pipeline.

  The grid has 1024 points. At point `t` the body is handed five input buffers — rows `8192·t … 8192·t+8191`
  of the activations, the quantization step and the zero point (two 1×1 arrays), the quantized weights, the
  bias row — and one output buffer. It reads all five, computes one value of shape 8192×10 from them (the
  payload `k1_pay1`) and stores it over the whole output buffer; the inputs are left as found. Everything is
  stated at a parameter `V`, the contents of the core's buffers when the call is entered.
-/
import proofs.«118362_j48954037240021_1_alg».proof.Proof.Gen.Kernel.Launch
import proofs.«118362_j48954037240021_1_alg».proof.Proof.Gen.Kernel.Skeleton
import proofs.«118362_j48954037240021_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetched it or an earlier one
    did and the block index has not moved since — for any proof data over the arrays `V` that leaves the inputs in
    place. One statement per input window (a window's block type is its stated one only at a literal window). -/
theorem held_in0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held_in1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held_in2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem held_in3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem held_in4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every buffer whole, through the unit-stride rectangle at the origin -/

abbrev rx : Rect S8192x5 := Rect.unit (s := S8192x5) ![0, 0] S8192x5.size inb_S8192x5_S8192x5_0_0
abbrev rs : Rect S1x1 := Rect.unit (s := S1x1) ![0, 0] S1x1.size inb_S1x1_S1x1_0_0
abbrev rw : Rect S10x5 := Rect.unit (s := S10x5) ![0, 0] S10x5.size inb_S10x5_S10x5_0_0
abbrev rb : Rect S1x10 := Rect.unit (s := S1x10) ![0, 0] S1x10.size inb_S1x10_S1x10_0_0
abbrev ro : Rect S8192x10 := Rect.unit (s := S8192x10) ![0, 0] S8192x10.size inb_S8192x10_S8192x10_0_0

/-- What the body leaves in the output buffer, from the five input buffers' contents: its one store. -/
def outBuf (x : Vec F S8192x5 .f32) (s z : Vec F S1x1 .f32) (w : Vec F S10x5 .f32) (b : Vec F S1x10 .f32) : Vec F S8192x10 .f32 :=
  View.canon [⟨ro, k1_pay1 (View.ld s rs) (View.ld z rs) (View.ld x rx) (View.ld w rw) (View.ld b rb)⟩]

/-- The one store covers the output buffer. -/
theorem outCover (p0 : Vec F S8192x10 .f32) (y : S8192x10.Idx) :
    ∃ pc ∈ ([⟨ro, p0⟩] : List (View.Piece (Elt F) S8192x10 .f32)), y ∈ pc.1.set :=
  View.cover_of_tiled [⟨ro, p0⟩] S8192x10.size (by rfl) y

/-! ## The body's triple -/

set_option maxHeartbeats 1000000 in
/-- On whole buffers, the inputs at `x s z w b` and the output at anything, the body runs and hands back the inputs
    as they were and the output at `outBuf`. -/
theorem body_triple (c : Dev nD) (E : Set ℕ) (i : grid1.Coords)
    (a1 : Memref sig .tc .vmem S8192x5 .f32) (h1 : a1.IsWhole) (a2 : Memref sig .tc .vmem S1x1 .f32) (h2 : a2.IsWhole)
    (a3 : Memref sig .tc .vmem S1x1 .f32) (h3 : a3.IsWhole) (a4 : Memref sig .tc .vmem S10x5 .f32) (h4 : a4.IsWhole)
    (a5 : Memref sig .tc .vmem S1x10 .f32) (h5 : a5.IsWhole) (a6 : Memref sig .tc .vmem S8192x10 .f32) (h6 : a6.IsWhole)
    (x : Vec F S8192x5 .f32) (s z : Vec F S1x1 .f32) (w : Vec F S10x5 .f32) (b : Vec F S1x10 .f32) (K : PUnit → sProp 𝕄) :
    iprop(owns (c : Thread nD τ) a1 fullShare x ∗ owns (c : Thread nD τ) a2 fullShare s ∗ owns (c : Thread nD τ) a3 fullShare z
        ∗ owns (c : Thread nD τ) a4 fullShare w ∗ owns (c : Thread nD τ) a5 fullShare b ∗ (∃ d, owns (c : Thread nD τ) a6 fullShare d)
        ∗ (iprop(owns (c : Thread nD τ) a1 fullShare x ∗ owns (c : Thread nD τ) a2 fullShare s ∗ owns (c : Thread nD τ) a3 fullShare z
            ∗ owns (c : Thread nD τ) a4 fullShare w ∗ owns (c : Thread nD τ) a5 fullShare b
            ∗ owns (c : Thread nD τ) a6 fullShare (outBuf x s z w b)) -∗ K ⟨⟩))
      ⊢ wp frame (wpE (defs₀ (F := F)) Variants.none c none) E (cc1__matmul_kernel i a1 h1 a2 h2 a3 h3 a4 h4 a5 h5 a6 h6) K := by
  simp only [cc1__matmul_kernel_eq_skeleton]; unfold cc1__matmul_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The pipeline's proof data -/

/-- The proof data on core `c`: the arrays as the call finds them; after the body at point `t` each input buffer at
    its block and the output buffer at `outBuf` of the five input blocks; nothing owed, full shares, and the
    invariant that only carries the scoped rest and the generator register along. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outBuf (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t
    = outBuf (blk1 V c 0 t) (blk1 V c 1 t) (blk1 V c 2 t) (blk1 V c 3 t) (blk1 V c 4 t) := by dsimp only [dat1]

theorem before1_0 (c : Dev nD) (t : Fin cfg1.N) (d) : (dat1 V c).before 0 t d = blk1 V c 0 t :=
  held_in0 V (dat1 V c) (A_eq1 V c 0) (after1_0 V c) t d
theorem before1_1 (c : Dev nD) (t : Fin cfg1.N) (d) : (dat1 V c).before 1 t d = blk1 V c 1 t :=
  held_in1 V (dat1 V c) (A_eq1 V c 1) (after1_1 V c) t d
theorem before1_2 (c : Dev nD) (t : Fin cfg1.N) (d) : (dat1 V c).before 2 t d = blk1 V c 2 t :=
  held_in2 V (dat1 V c) (A_eq1 V c 2) (after1_2 V c) t d
theorem before1_3 (c : Dev nD) (t : Fin cfg1.N) (d) : (dat1 V c).before 3 t d = blk1 V c 3 t :=
  held_in3 V (dat1 V c) (A_eq1 V c 3) (after1_3 V c) t d
theorem before1_4 (c : Dev nD) (t : Fin cfg1.N) (d) : (dat1 V c).before 4 t d = blk1 V c 4 t :=
  held_in4 V (dat1 V c) (A_eq1 V c 4) (after1_4 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Fr1

end
-- ==== Proof.K.Run.lean ====
/-
  The whole run of @main on the TensorCores, at any float instance: the first pallas_call, nine stretches of
  host operations, the second pallas_call — and what every buffer holds at the end.

  The contents of a core's buffers are followed from the launch through the eleven segments: a pallas_call
  leaves each of its windows' arrays at what its write-backs make of it and touches nothing else; a host
  stretch leaves what its operations compute. Each pallas_call is entered with the buffers at the contents
  the segment before it left, runs its pipeline under its body obligation, and hands the buffers on. Read
  against a final state this gives every buffer's last contents — in particular the three arguments, which no
  segment writes, end as launched.

  The first pallas_call's body is a parameter here (`aft0`: what it leaves in its staging buffers at each point;
  `hbody0`: its body obligation): everything else about it is fixed.
-/
import proofs.«118362_j48954037240021_1_alg».proof.Proof.Gen.Kernel.Regions
import proofs.«118362_j48954037240021_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffers as a pallas_call finds them. -/
abbrev Entry (F : FTy → Type) : Type := (c : Dev nD) → (b : Ref sig .tc) → Buf (Elt F) ((c : Thread nD τ).loc b)
/-- What the first pallas_call's body leaves in each window's staging buffer at each point. -/
abbrev After0 (F : FTy → Type) : Type :=
  Entry F → (c : Dev nD) → (w : Fin cfg0.W) → Fin cfg0.N → (cfg0.win w).block.Idx → Elt F (cfg0.win w).elt

/-- The first pipeline's proof data from what its body leaves: arrays as found, nothing owed, full shares, the
    invariant that carries the scoped rest and the generator register along. -/
def dat0 (V : Entry F) (c : Dev nD) (aft : (w : Fin cfg0.W) → Fin cfg0.N → (cfg0.win w).block.Idx → Elt F (cfg0.win w).elt) :
    Dat τ (Elt F) Unit ℕ (UR sig nD τ) ℕ cfg0 c where
  A w := V c (Pipeline.arrRef spec0 w)
  after := aft
  Φ _ := Pipeline.ΦA spec0 c
  q _ := fullShare
  owed _ := 0

theorem A_eq0 (V : Entry F) (c : Dev nD) (aft) (w : Fin cfg0.W) : (dat0 V c aft).A w = V c (Pipeline.arrRef spec0 w) := by
  dsimp only [dat0]

variable (aft0 : After0 F)
variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
abbrev V0 : Entry F := fun c b => W0 m c b
/-- After the first pallas_call: its arrays at what the pipeline leaves, every other buffer as entered. -/
def W1 (c : Dev nD) : Valuation τ sig (Elt F) :=
  Pipeline.withArrays spec0 c (W0 m c) fun w => (dat0 (V0 m) c (aft0 (V0 m) c)).arrAt w cfg0.N
theorem W1_arr (c : Dev nD) (w : Fin cfg0.W) :
    W1 aft0 m c (Proc.devRef .tc (Pipeline.arrRef spec0 w)) = (dat0 (V0 m) c (aft0 (V0 m) c)).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 aft0 m c (Proc.devRef .tc b) = W0 m c (Proc.devRef .tc b) := by
  unfold W1; exact Pipeline.withArrays_of_ne spec0 c _ _ b hb
abbrev V1 : Entry F := fun c b => W1 aft0 m c b
theorem hF0 (c : Dev nD) (w : Fin cfg0.W) : (dat0 (V0 m) c (aft0 (V0 m) c)).arrAt w cfg0.N = V1 aft0 m c (Pipeline.arrRef spec0 w) :=
  (W1_arr aft0 m c w).symm
theorem hrest0 (c : Dev nD) : ∀ b, b ∉ Finset.univ.image (Pipeline.arrRef spec0) → V1 aft0 m c b = V0 m c b :=
  fun b hb => W1_of_ne aft0 m c b fun w e => hb (Finset.mem_image.mpr ⟨w, Finset.mem_univ _, e⟩)

/-- After the host stretch `hostOps1`. -/
abbrev W2 : Dev nD → Valuation τ sig (Elt F) := fun c => StableHlo.after hostOps1 (W1 aft0 m c)
/-- After the host stretch `hostOps1_1`. -/
abbrev W3 : Dev nD → Valuation τ sig (Elt F) := fun c => StableHlo.after hostOps1_1 (W2 aft0 m c)
/-- After the host stretch `hostOps1_2`. -/
abbrev W4 : Dev nD → Valuation τ sig (Elt F) := fun c => StableHlo.after hostOps1_2 (W3 aft0 m c)
/-- After the host stretch `hostOps1_3`. -/
abbrev W5 : Dev nD → Valuation τ sig (Elt F) := fun c => StableHlo.after hostOps1_3 (W4 aft0 m c)
/-- After the host stretch `hostOps1_4`. -/
abbrev W6 : Dev nD → Valuation τ sig (Elt F) := fun c => StableHlo.after hostOps1_4 (W5 aft0 m c)
/-- After the host stretch `hostOps1_5`. -/
abbrev W7 : Dev nD → Valuation τ sig (Elt F) := fun c => StableHlo.after hostOps1_5 (W6 aft0 m c)
/-- After the host stretch `hostOps1_6`. -/
abbrev W8 : Dev nD → Valuation τ sig (Elt F) := fun c => StableHlo.after hostOps1_6 (W7 aft0 m c)
/-- After the host stretch `hostOps1_7`. -/
abbrev W9 : Dev nD → Valuation τ sig (Elt F) := fun c => StableHlo.after hostOps1_7 (W8 aft0 m c)
/-- After the host stretch `hostOps1_8`. -/
abbrev W10 : Dev nD → Valuation τ sig (Elt F) := fun c => StableHlo.after hostOps1_8 (W9 aft0 m c)

/-- The buffers as the second pallas_call finds them. -/
abbrev V10 : Entry F := fun c b => W10 aft0 m c b
/-- After the second pallas_call. -/
def W11 (c : Dev nD) : Valuation τ sig (Elt F) :=
  Pipeline.withArrays spec1 c (W10 aft0 m c) fun w => (Fr1.dat1 (V10 aft0 m) c).arrAt w cfg1.N
theorem W11_arr (c : Dev nD) (w : Fin cfg1.W) :
    W11 aft0 m c (Proc.devRef .tc (Pipeline.arrRef spec1 w)) = (Fr1.dat1 (V10 aft0 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 aft0 m c (Proc.devRef .tc b) = W10 aft0 m c (Proc.devRef .tc b) := by
  unfold W11; exact Pipeline.withArrays_of_ne spec1 c _ _ b hb
abbrev V11 : Entry F := fun c b => W11 aft0 m c b
theorem hF1 (c : Dev nD) (w : Fin cfg1.W) : (Fr1.dat1 (V10 aft0 m) c).arrAt w cfg1.N = V11 aft0 m c (Pipeline.arrRef spec1 w) :=
  (W11_arr aft0 m c w).symm
theorem hrest1 (c : Dev nD) : ∀ b, b ∉ Finset.univ.image (Pipeline.arrRef spec1) → V11 aft0 m c b = V10 aft0 m c b :=
  fun b hb => W11_of_ne aft0 m c b fun w e => hb (Finset.mem_image.mpr ⟨w, Finset.mem_univ _, e⟩)

/-- A buffer no host stretch writes holds between the two pallas_calls what the first one left. -/
theorem W10_of (c : Dev nD) (r : Ref sig .tc) (h1 : r ∉ hostOps1_W) (h2 : r ∉ hostOps1_1_W) (h3 : r ∉ hostOps1_2_W) (h4 : r ∉ hostOps1_3_W) (h5 : r ∉ hostOps1_4_W) (h6 : r ∉ hostOps1_5_W) (h7 : r ∉ hostOps1_6_W) (h8 : r ∉ hostOps1_7_W) (h9 : r ∉ hostOps1_8_W) :
    W10 aft0 m c (Proc.devRef .tc r) = W1 aft0 m c (Proc.devRef .tc r) :=
  calc W10 aft0 m c (Proc.devRef .tc r)
    _ = W9 aft0 m c (Proc.devRef .tc r) := StableHlo.after_of_writes_sub hostOps1_8 _ hostOps1_8_writes h9
    _ = W8 aft0 m c (Proc.devRef .tc r) := StableHlo.after_of_writes_sub hostOps1_7 _ hostOps1_7_writes h8
    _ = W7 aft0 m c (Proc.devRef .tc r) := StableHlo.after_of_writes_sub hostOps1_6 _ hostOps1_6_writes h7
    _ = W6 aft0 m c (Proc.devRef .tc r) := StableHlo.after_of_writes_sub hostOps1_5 _ hostOps1_5_writes h6
    _ = W5 aft0 m c (Proc.devRef .tc r) := StableHlo.after_of_writes_sub hostOps1_4 _ hostOps1_4_writes h5
    _ = W4 aft0 m c (Proc.devRef .tc r) := StableHlo.after_of_writes_sub hostOps1_3 _ hostOps1_3_writes h4
    _ = W3 aft0 m c (Proc.devRef .tc r) := StableHlo.after_of_writes_sub hostOps1_2 _ hostOps1_2_writes h3
    _ = W2 aft0 m c (Proc.devRef .tc r) := StableHlo.after_of_writes_sub hostOps1_1 _ hostOps1_1_writes h2
    _ = W1 aft0 m c (Proc.devRef .tc r) := StableHlo.after_of_writes_sub hostOps1 _ hostOps1_writes h1

/-- The activations end as launched: both pallas_calls only read them, no host operation writes them. -/
theorem W11_main_arg0 (c : Dev nD) : W11 aft0 m c (Proc.devRef .tc main_arg0) = m ((c : Thread nD τ).loc main_arg0) :=
  calc W11 aft0 m c (Proc.devRef .tc main_arg0)
    _ = W10 aft0 m c (Proc.devRef .tc main_arg0) :=
        (W11_arr aft0 m c 0).trans (((Fr1.dat1 (V10 aft0 m) c).arrAt_in 0 rfl _).trans (Fr1.A_eq1 (V10 aft0 m) c 0))
    _ = W1 aft0 m c (Proc.devRef .tc main_arg0) := W10_of aft0 m c main_arg0 (by decide) (by decide) (by decide) (by decide) (by decide) (by decide) (by decide) (by decide) (by decide)
    _ = W0 m c (Proc.devRef .tc main_arg0) :=
        (W1_arr aft0 m c 0).trans (((dat0 (V0 m) c (aft0 (V0 m) c)).arrAt_in 0 rfl _).trans (A_eq0 (V0 m) c _ 0))
    _ = m ((c : Thread nD τ).loc main_arg0) := rfl
/-- The weights end as launched: no window stages them, no host operation writes them. -/
theorem W11_main_arg1 (c : Dev nD) : W11 aft0 m c (Proc.devRef .tc main_arg1) = m ((c : Thread nD τ).loc main_arg1) :=
  calc W11 aft0 m c (Proc.devRef .tc main_arg1)
    _ = W10 aft0 m c (Proc.devRef .tc main_arg1) := W11_of_ne aft0 m c main_arg1 (by decide)
    _ = W1 aft0 m c (Proc.devRef .tc main_arg1) := W10_of aft0 m c main_arg1 (by decide) (by decide) (by decide) (by decide) (by decide) (by decide) (by decide) (by decide) (by decide)
    _ = W0 m c (Proc.devRef .tc main_arg1) := W1_of_ne aft0 m c main_arg1 (by decide)
    _ = m ((c : Thread nD τ).loc main_arg1) := rfl
/-- The bias ends as launched. -/
theorem W11_main_arg2 (c : Dev nD) : W11 aft0 m c (Proc.devRef .tc main_arg2) = m ((c : Thread nD τ).loc main_arg2) :=
  calc W11 aft0 m c (Proc.devRef .tc main_arg2)
    _ = W10 aft0 m c (Proc.devRef .tc main_arg2) := W11_of_ne aft0 m c main_arg2 (by decide)
    _ = W1 aft0 m c (Proc.devRef .tc main_arg2) := W10_of aft0 m c main_arg2 (by decide) (by decide) (by decide) (by decide) (by decide) (by decide) (by decide) (by decide) (by decide)
    _ = W0 m c (Proc.devRef .tc main_arg2) := W1_of_ne aft0 m c main_arg2 (by decide)
    _ = m ((c : Thread nD τ).loc main_arg2) := rfl

/-! ## The proof data family and the thread state -/

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V0 m) c (aft0 (V0 m) c)
  | ⟨1, _⟩ => fun c => Fr1.dat1 (V10 aft0 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at its last contents, the generator register at some state. -/
abbrev Tₙ (c : Dev nD) : sProp 𝕄 := iprop(StableHlo.held (c : Thread nD τ) (Pipeline.ucRefs τ sig) (W11 aft0 m c) ∗ ∃ r, prngReg c r)

/-! ## The pallas_calls as segments -/

set_option backward.isDefEq.respectTransparency.types false in
/-- The first pallas_call over the thread state: entered from the launch contents, left at `W1`. Its arrays are split
    out of the unscoped buffers and put back at the exit contents; the generator register goes into the invariant and
    comes out; nothing is owed; the kernel has no semaphore of its own. -/
def reg0 (hbody0 : ∀ (V : Entry F) (c : Dev nD), BodyObligation (dat0 V c (aft0 V c)) (defs₀ (F := F)) Variants.none () Set.univ) :
    Pipeline.RegionSeg (pcfgs (F := F)) adm (pdats aft0 m) () defs₀ 𝒱₀ L lv 0 where
  win := launch0.win.to₀
  block_pos := launch0.block_pos
  stage_whole := launch0.stage_whole
  K := PEmpty
  osem k := k.elim
  ho := Pipeline.OwnSemFacts.none _
  hbody c := (hbody0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 aft0 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats aft0 m) launch0.win launch0.arr_whole c
      ((pdats aft0 m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats aft0 m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats aft0 m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats aft0 m) ((pdats aft0 m 0 c).share_full fun _ => rfl)
      (V0 m c) (V1 aft0 m c) ((pdats aft0 m 0 c).arrAt · cfg0.N) (hF0 aft0 m c) (hrest0 aft0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from `W10`, left at `W11`, which the launch reads at the end. -/
def reg1 : Pipeline.RegionSeg (pcfgs (F := F)) adm (pdats aft0 m) () defs₀ 𝒱₀ L lv 1 where
  win := launch1.win.to₀
  block_pos := launch1.block_pos
  stage_whole := launch1.stage_whole
  K := PEmpty
  osem k := k.elim
  ho := Pipeline.OwnSemFacts.none _
  hbody c := (Fr1.body_obligation1 (V10 aft0 m) c).loose
  hwaits := Pipeline.hwaits_of_owed_zero _ _ _ _ L lv 1 fun _ _ => rfl
  pre c := iprop(StableHlo.held (c : Thread nD τ) (Pipeline.ucRefs τ sig) (W10 aft0 m c) ∗ R c)
  post c := iprop(Tₙ aft0 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V10 aft0 m c)
  hentry c := by
    rw [Pipeline.ownSems0_none]
    have hsplit := Pipeline.arrays_of_unscopedBufs (p := 1) (pcfgs (F := F)) adm (pdats aft0 m) launch1.win launch1.arr_whole c
      ((pdats aft0 m 1 c).share_full fun _ => rfl) (V10 aft0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats aft0 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats aft0 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats aft0 m) ((pdats aft0 m 1 c).share_full fun _ => rfl)
      (V10 aft0 m c) (V11 aft0 m c) ((pdats aft0 m 1 c).arrAt · cfg1.N) (hF1 aft0 m c) (hrest1 aft0 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eleven segments in order. -/
abbrev segs (hbody0 : ∀ (V : Entry F) (c : Dev nD), BodyObligation (dat0 V c (aft0 V c)) (defs₀ (F := F)) Variants.none () Set.univ) :
    List (Pipeline.Seg (pcfgs (F := F)) adm (pdats aft0 m) () defs₀ 𝒱₀ L lv) :=
  [ .region (reg0 aft0 m hbody0),
    .host (hseg hostOps1 hostOps1_sub hostOps1_fresh (W1 aft0 m)),
    .host (hseg hostOps1_1 hostOps1_1_sub hostOps1_1_fresh (W2 aft0 m)),
    .host (hseg hostOps1_2 hostOps1_2_sub hostOps1_2_fresh (W3 aft0 m)),
    .host (hseg hostOps1_3 hostOps1_3_sub hostOps1_3_fresh (W4 aft0 m)),
    .host (hseg hostOps1_4 hostOps1_4_sub hostOps1_4_fresh (W5 aft0 m)),
    .host (hseg hostOps1_5 hostOps1_5_sub hostOps1_5_fresh (W6 aft0 m)),
    .host (hseg hostOps1_6 hostOps1_6_sub hostOps1_6_fresh (W7 aft0 m)),
    .host (hseg hostOps1_7 hostOps1_7_sub hostOps1_7_fresh (W8 aft0 m)),
    .host (hseg hostOps1_8 hostOps1_8_sub hostOps1_8_fresh (W9 aft0 m)),
    .region (reg1 aft0 m) ]

/-- @main is the run of the segments. -/
theorem main_run (hbody0 : ∀ (V : Entry F) (c : Dev nD), BodyObligation (dat0 V c (aft0 V c)) (defs₀ (F := F)) Variants.none () Set.univ) (c : Dev nD) : main (F := F) c = Pipeline.Seg.run (segs aft0 m hbody0) := (main_chain c).trans (by chain_rfl)

set_option backward.isDefEq.respectTransparency.types false in
/-- From any memory with zero counters every weakly fair execution of @main on the TensorCores terminates, nothing
    faulting, and in every final state each unscoped buffer holds its last contents `W11`. -/
theorem run_all (hbody0 : ∀ (V : Entry F) (c : Dev nD), BodyObligation (dat0 V c (aft0 V c)) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = W11 aft0 m c b) :=
  Pipeline.θ_run_regions_kit (pcfgs (F := F)) adm (pdats aft0 m) () cellOf_inj emb₁ defs₀ 𝒱₀ L lv m ρ main (segs aft0 m hbody0)
    (fun c Q => by rw [main_run aft0 m hbody0 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ aft0 m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 aft0 m c b)
    (hfin := fun c s' => by
      iintro ⟨⟨Hh, -⟩, HSI⟩
      unfold StableHlo.held
      imodintro
      iapply (pointsTo_read_all (Pipeline.ucRefs τ sig) (fun b => (((c : Thread nD τ)).1, b)) (W11 aft0 m c) s')
      isplitl [Hh] <;> iassumption)
    (hQ := fun s h => h)

/-- The frame: the three arguments end as launched. -/
theorem frame (hbody0 : ∀ (V : Entry F) (c : Dev nD), BodyObligation (dat0 V c (aft0 V c)) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W11_main_arg0 aft0 m c),
     (h c _ (mem_uc main_arg1 (by decide))).trans (W11_main_arg1 aft0 m c),
     (h c _ (mem_uc main_arg2 (by decide))).trans (W11_main_arg2 aft0 m c)⟩) (run_all aft0 m ρ hbody0)

/-- The result array ends at what the second pipeline's write-backs make of it. -/
theorem result_eq (c : Dev nD) : W11 aft0 m c (Proc.devRef .tc main_v30) = (Fr1.dat1 (V10 aft0 m) c).arrAt 5 cfg1.N :=
  W11_arr aft0 m c 5

end Cert.Kernel.Run

end
-- ==== Proof.K.Region0.lean ====
/- The body of the first pipeline (the running minimum and maximum over the blocks of the input), at any
   float instance: what each staging buffer holds after the body at each grid point, and the proof that the
   body, run at a point on the buffers as they then are, leaves exactly that.

   The body computes the minimum and the maximum of its block; at the first grid point it stores them into the
   two one-element output buffers, at every later point it stores the minimum (maximum) of what the buffer held
   and the block's. The two conditions are complementary, so every point stores into both outputs. -/
import proofs.«118362_j48954037240021_1_alg».proof.Proof.Gen.Kernel.Launch
import proofs.«118362_j48954037240021_1_alg».proof.Proof.Gen.Kernel.Skeleton
import proofs.«118362_j48954037240021_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Fr0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole input block's rectangle and the whole 1x1 buffer's rectangle, as the body's accesses spell them. -/
abbrev rIn : Rect S16384x5 := Rect.unit (s := S16384x5) ![0, 0] S16384x5.size inb_S16384x5_S16384x5_0_0
abbrev rAcc : Rect S1x1 := Rect.unit (s := S1x1) ![0, 0] S1x1.size inb_S1x1_S1x1_0_0

theorem zeros2 : (![0, 0] : Fin 2 → ℕ) = fun _ => 0 := by
  funext a; fin_cases a <;> rfl

/-- One store through the whole 1x1 rectangle covers the buffer, -/
theorem coverAcc (p : Vec F S1x1 .f32) (y : S1x1.Idx) :
    ∃ pc ∈ ([⟨rAcc, p⟩] : List (View.Piece (Elt F) S1x1 .f32)), y ∈ pc.1.set :=
  View.cover_of_tiled [⟨rAcc, p⟩] S1x1.size (by rfl) y
/-- and leaves its payload there; -/
theorem canonAcc (p : Vec F S1x1 .f32) : View.canon [(⟨rAcc, p⟩ : View.Piece (Elt F) S1x1 .f32)] = p :=
  View.canon_unit_zero (S := S1x1) zeros2 inb_S1x1_S1x1_0_0 p
/-- a load through a whole rectangle reads the contents. -/
theorem ldIn (x : Vec F S16384x5 .f32) : View.ld x rIn = x :=
  View.ld_unit_zero (S := S16384x5) zeros2 inb_S16384x5_S16384x5_0_0 x
theorem ldAcc (x : Vec F S1x1 .f32) : View.ld x rAcc = x :=
  View.ld_unit_zero (S := S1x1) zeros2 inb_S1x1_S1x1_0_0 x

/-! ## The body's two runs -/

set_option maxHeartbeats 1000000 in
/-- At a point that takes the first conditional only: the body, on whole staging memrefs, the input's at
    contents `x0` and the outputs' at anything, leaves the block's minimum in the first output's buffer and its
    maximum in the second's. -/
theorem run_first (c : Dev nD) (E : Set ℕ) (i : grid0.Coords)
    (arg1 : Memref sig .tc .vmem S16384x5 .f32) (harg1 : arg1.IsWhole)
    (arg2 : Memref sig .tc .vmem S1x1 .f32) (harg2 : arg2.IsWhole)
    (arg3 : Memref sig .tc .vmem S1x1 .f32) (harg3 : arg3.IsWhole)
    (hc1 : k0_cond1 i = 1#1) (hc2 : ¬ k0_cond2 i = 1#1)
    (x0 : Vec F S16384x5 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0
            ∗ owns (c : Thread nD τ) arg2 fullShare (k0_pay1 x0)
            ∗ owns (c : Thread nD τ) arg3 fullShare (k0_pay2 x0)) -∗ K ⟨⟩))
      ⊢ wp frame (wpE (defs₀ (F := F)) Variants.none c none) E (cc0__minmax_kernel i arg1 harg1 arg2 harg2 arg3 harg3) K := by
  simp only [cc0__minmax_kernel_eq_skeleton]; unfold cc0__minmax_kernel_skel
  unfold owns
  iintro ⟨⟨%f0, %hf0, H0⟩, ⟨%d1, %f1, -, H1⟩, ⟨%d2, %f2, -, H2⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact (View.read_writes_eq_canon _ _ _ (coverAcc _)).trans
      ((canonAcc (k0_pay1 (View.ld (arg1.view.read (Elt F) f0) rIn))).trans (congrArg k0_pay1 (ldIn _)))
  · iexists _; isplitr
    swap; · iexact H2
    ipureintro
    exact (View.read_writes_eq_canon _ _ _ (coverAcc _)).trans
      ((canonAcc (k0_pay2 (View.ld (arg1.view.read (Elt F) f0) rIn))).trans (congrArg k0_pay2 (ldIn _)))

set_option maxHeartbeats 1000000 in
/-- At a point that takes the second conditional only: with the outputs' buffers at contents `a1`, `a2`, the
    body leaves the minimum of `a1` and the block's in the first and the maximum of `a2` and the block's in
    the second. -/
theorem run_later (c : Dev nD) (E : Set ℕ) (i : grid0.Coords)
    (arg1 : Memref sig .tc .vmem S16384x5 .f32) (harg1 : arg1.IsWhole)
    (arg2 : Memref sig .tc .vmem S1x1 .f32) (harg2 : arg2.IsWhole)
    (arg3 : Memref sig .tc .vmem S1x1 .f32) (harg3 : arg3.IsWhole)
    (hc1 : ¬ k0_cond1 i = 1#1) (hc2 : k0_cond2 i = 1#1)
    (x0 : Vec F S16384x5 .f32) (a1 a2 : Vec F S1x1 .f32) (K : PUnit → sProp 𝕄) :
    iprop(owns (c : Thread nD τ) arg1 fullShare x0 ∗ owns (c : Thread nD τ) arg2 fullShare a1 ∗ owns (c : Thread nD τ) arg3 fullShare a2
        ∗ (iprop(owns (c : Thread nD τ) arg1 fullShare x0
            ∗ owns (c : Thread nD τ) arg2 fullShare (k0_pay3 x0 a1)
            ∗ owns (c : Thread nD τ) arg3 fullShare (k0_pay4 x0 a2)) -∗ K ⟨⟩))
      ⊢ wp frame (wpE (defs₀ (F := F)) Variants.none c none) E (cc0__minmax_kernel i arg1 harg1 arg2 harg2 arg3 harg3) K := by
  simp only [cc0__minmax_kernel_eq_skeleton]; unfold cc0__minmax_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact (View.read_writes_eq_canon _ _ _ (coverAcc _)).trans
      ((canonAcc (k0_pay3 (View.ld (arg1.view.read (Elt F) f0) rIn) (View.ld (arg2.view.read (Elt F) f1) rAcc))).trans
        (congrArg₂ k0_pay3 (ldIn _) (ldAcc _)))
  · iexists _; isplitr
    swap; · iexact H2
    ipureintro
    exact (View.read_writes_eq_canon _ _ _ (coverAcc _)).trans
      ((canonAcc (k0_pay4 (View.ld (arg1.view.read (Elt F) f0) rIn) (View.ld (arg3.view.read (Elt F) f2) rAcc))).trans
        (congrArg₂ k0_pay4 (ldIn _) (ldAcc _)))

/-! ## Which conditional a point takes -/

/-- The first conditional is taken at the first point only, -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- and the second at every other point. -/
theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)

/-- The two conditions are complementary as words: one of them holds whatever the coordinate. -/
theorem cond_or (a : BitVec 32) :
    (!(Scalar.cmpi .ne (Scalar.extui (Scalar.cmpi .eq a 0#32)) 0#32 == 1#1)
      && !(Scalar.cmpi .ne (Scalar.extui (Scalar.cmpi .ne a 0#32)) 0#32 == 1#1)) = false := by
  by_cases h : a = 0#32
  · subst h; decide
  · have hb : (a == 0#32) = false := by simpa using h
    simp only [Scalar.cmpi, IntOp.cmpi, bne, hb]
    decide

/-- So no point is idle for any window. -/
theorem hlive0 : ∀ i : grid0.Coords, cfg0.idle 0 i = false := fun _ => rfl
theorem hlive1 : ∀ i : grid0.Coords, cfg0.idle 1 i = false := fun i => cond_or _
theorem hlive2 : ∀ i : grid0.Coords, cfg0.idle 2 i = false := fun i => cond_or _

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over `V`
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl hlive0 (fun _ _ _ => rfl) (fun t => by rw [hafter]; unfold Dat.blockOf iblk0; rw [hA]; try rfl) t d).trans
    (by unfold Dat.fetched Dat.blockOf iblk0; rw [hA]; try rfl)

/-! ## What the outputs hold after each point -/

/-- The running minimum: after the first point the first block's minimum, after each later point the minimum of
    what the point before left and the block's. -/
def accMin (c : Dev nD) : (n : ℕ) → n < cfg0.N → Vec F S1x1 .f32
  | 0, hn => k0_pay1 (iblk0 V c 0 ⟨0, hn⟩)
  | n + 1, hn => k0_pay3 (iblk0 V c 0 ⟨n + 1, hn⟩) (accMin c n (Nat.lt_of_succ_lt hn))

/-- The running maximum, likewise. -/
def accMax (c : Dev nD) : (n : ℕ) → n < cfg0.N → Vec F S1x1 .f32
  | 0, hn => k0_pay2 (iblk0 V c 0 ⟨0, hn⟩)
  | n + 1, hn => k0_pay4 (iblk0 V c 0 ⟨n + 1, hn⟩) (accMax c n (Nat.lt_of_succ_lt hn))

theorem accMin_first (c : Dev nD) (t : Fin cfg0.N) (h0 : t.val = 0) :
    accMin V c t.val t.isLt = k0_pay1 (iblk0 V c 0 t) := by
  obtain ⟨n, hn⟩ := t
  cases n with
  | zero => exact rfl
  | succ n => exact absurd h0 (Nat.succ_ne_zero n)

theorem accMin_later (c : Dev nD) (t : Fin cfg0.N) (h0 : t.val ≠ 0) :
    accMin V c t.val t.isLt = k0_pay3 (iblk0 V c 0 t) (accMin V c (t.val - 1) (Nat.lt_of_le_of_lt (Nat.sub_le _ _) t.isLt)) := by
  obtain ⟨n, hn⟩ := t
  cases n with
  | zero => exact absurd rfl h0
  | succ n => exact rfl

theorem accMax_first (c : Dev nD) (t : Fin cfg0.N) (h0 : t.val = 0) :
    accMax V c t.val t.isLt = k0_pay2 (iblk0 V c 0 t) := by
  obtain ⟨n, hn⟩ := t
  cases n with
  | zero => exact rfl
  | succ n => exact absurd h0 (Nat.succ_ne_zero n)

theorem accMax_later (c : Dev nD) (t : Fin cfg0.N) (h0 : t.val ≠ 0) :
    accMax V c t.val t.isLt = k0_pay4 (iblk0 V c 0 t) (accMax V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 0 on core `c`: the arrays as the region finds them; after the body at point `t`
    the input's buffer at its block, the outputs' at the running minimum and maximum; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accMin V c t.val t.isLt
    | ⟨2, _⟩ => accMax V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = accMin V c t.val t.isLt := by dsimp only [dat0]
theorem after0_2 (c : Dev nD) (t : Fin cfg0.N) : (dat0 V c).after 2 t = accMax V c t.val t.isLt := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- After the first point each output's current staging buffer holds what the body left at the point before: the
    buffer is written back at the last point only, and the window is never idle. -/
theorem before0_1_later (c : Dev nD) (t : Fin cfg0.N) (h0 : t.val ≠ 0) (d) :
    (dat0 V c).before 1 t d = accMin V c (t.val - 1) (Nat.lt_of_le_of_lt (Nat.sub_le _ _) t.isLt) := by
  have hN : t.val < 512 := lt_of_lt_of_eq t.isLt (show cfg0.N = 512 from N_0)
  rw [Dat.before_out_kept _ 1 rfl t h0 (Bool.eq_false_iff.mpr fun h => by have := (flush0_1 _).mp h; dsimp only at this; omega)
    hlive1 (fun _ _ => rfl)]
  dsimp only [dat0]

theorem before0_2_later (c : Dev nD) (t : Fin cfg0.N) (h0 : t.val ≠ 0) (d) :
    (dat0 V c).before 2 t d = accMax V c (t.val - 1) (Nat.lt_of_le_of_lt (Nat.sub_le _ _) t.isLt) := by
  have hN : t.val < 512 := lt_of_lt_of_eq t.isLt (show cfg0.N = 512 from N_0)
  rw [Dat.before_out_kept _ 2 rfl t h0 (Bool.eq_false_iff.mpr fun h => by have := (flush0_2 _).mp h; dsimp only at this; omega)
    hlive2 (fun _ _ => rfl)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the input's memref holds its block; at the first point the first run applies, the
    outputs' buffers at anything; at a later point the outputs' buffers hold what the point before left, and the
    second run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [accMin_first V c t h0, accMax_first V c t h0]
    iintro ⟨HΦ, Ho, ⟨%d0, H0⟩, ⟨%d1, H1⟩, ⟨%d2, H2⟩⟩
    iapply (run_first c Set.univ (grid0.coords t) _ _ _ _ _ _ ((cond1_iff t).mpr h0) (fun h => (cond2_iff t).mp h h0) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accMin_later V c t h0, accMax_later V c t h0]
    simp only [before0_1_later V c t h0, before0_2_later V c t h0]
    iintro ⟨HΦ, Ho, ⟨%d0, H0⟩, ⟨%d1, H1⟩, ⟨%d2, H2⟩⟩
    iapply (run_later c Set.univ (grid0.coords t) _ _ _ _ _ _ (fun h => h0 ((cond1_iff t).mp h)) ((cond2_iff t).mpr h0) (iblk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point: no window is idle anywhere, so each is handed back at what
    the body leaves. -/
theorem body_obligation0 (c : Dev nD) : BodyObligation (dat0 (F := F) V c) (defs₀ (F := F)) Variants.none () Set.univ := fun t => by
  rw [bigSep_W0, bigSep_W0]
  simp only []
  -- both output windows' idle entries are the same word expression, false at every coordinate
  rw [show idle0 1 (grid0.coords t) = false from cond_or _]
  simp only []
  exact sound_body0 V c t

end Regions

end Cert.Kernel.Fr0

end
-- ==== Proof.K.Body0.lean ====
/-
  The first pallas_call's body as the run takes it: what it leaves in the staging buffers at each point, and its
  body obligation over the run's proof data — at any float instance.
-/
import proofs.«118362_j48954037240021_1_alg».proof.Proof.K.Run
import proofs.«118362_j48954037240021_1_alg».proof.Proof.K.Region0

noncomputable section

namespace Cert.Kernel.Body0

open Cert.Kernel Cert.Kernel.Gen
open Idealize.ShloMosaic Idealize.ShloMosaic.TcCoe Idealize.SL.Sem

variable {F : FTy → Type} [FloatOps F]

/-- What the first pallas_call's body leaves in its staging buffers: the input's block, the running minimum, the
    running maximum. -/
def aft0 : Run.After0 F := fun V c => (Fr0.dat0 V c).after

/-- Its body obligation, over the run's proof data (the same data: arrays as found, nothing owed, full shares). -/
theorem hbody0 (V : Run.Entry F) (c : Dev nD) :
    Pipeline.BodyObligation (Run.dat0 V c (aft0 V c)) (defs₀ (F := F)) Variants.none () Set.univ :=
  Fr0.body_obligation0 V c

/-- The frame of the whole program: every weakly fair execution terminates, nothing faults, the arguments end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Run.frame aft0 m ρ hbody0

end Cert.Kernel.Body0

end
-- ==== Proof.KI.Region1.lean ====
/-
  The second pallas_call on one core, at any float instance: what its body does to the staging buffers at a
  grid point, and from that the body obligation of its pipeline.

  The grid has 1024 points. At point `t` the body is handed five input buffers — rows `8192·t … 8192·t+8191`
  of the activations, the quantization step and the zero point (two 1×1 arrays), the quantized weights, the
  bias row — and one output buffer. It reads all five, computes one value of shape 8192×10 from them (the
  payload `k1_pay1`) and stores it over the whole output buffer; the inputs are left as found. Everything is
  stated at a parameter `V`, the contents of the core's buffers when the call is entered.
-/
import proofs.«118362_j48954037240021_1_alg».proof.Proof.Gen.KernelIdeal.Launch
import proofs.«118362_j48954037240021_1_alg».proof.Proof.Gen.KernelIdeal.Skeleton
import proofs.«118362_j48954037240021_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetched it or an earlier one
    did and the block index has not moved since — for any proof data over the arrays `V` that leaves the inputs in
    place. One statement per input window (a window's block type is its stated one only at a literal window). -/
theorem held_in0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held_in1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held_in2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem held_in3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem held_in4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: every buffer whole, through the unit-stride rectangle at the origin -/

abbrev rx : Rect S8192x5 := Rect.unit (s := S8192x5) ![0, 0] S8192x5.size inb_S8192x5_S8192x5_0_0
abbrev rs : Rect S1x1 := Rect.unit (s := S1x1) ![0, 0] S1x1.size inb_S1x1_S1x1_0_0
abbrev rw : Rect S10x5 := Rect.unit (s := S10x5) ![0, 0] S10x5.size inb_S10x5_S10x5_0_0
abbrev rb : Rect S1x10 := Rect.unit (s := S1x10) ![0, 0] S1x10.size inb_S1x10_S1x10_0_0
abbrev ro : Rect S8192x10 := Rect.unit (s := S8192x10) ![0, 0] S8192x10.size inb_S8192x10_S8192x10_0_0

/-- What the body leaves in the output buffer, from the five input buffers' contents: its one store. -/
def outBuf (x : Vec F S8192x5 .f32) (s z : Vec F S1x1 .f32) (w : Vec F S10x5 .f32) (b : Vec F S1x10 .f32) : Vec F S8192x10 .f32 :=
  View.canon [⟨ro, k1_pay1 (View.ld s rs) (View.ld z rs) (View.ld x rx) (View.ld w rw) (View.ld b rb)⟩]

/-- The one store covers the output buffer. -/
theorem outCover (p0 : Vec F S8192x10 .f32) (y : S8192x10.Idx) :
    ∃ pc ∈ ([⟨ro, p0⟩] : List (View.Piece (Elt F) S8192x10 .f32)), y ∈ pc.1.set :=
  View.cover_of_tiled [⟨ro, p0⟩] S8192x10.size (by rfl) y

/-! ## The body's triple -/

set_option maxHeartbeats 1000000 in
/-- On whole buffers, the inputs at `x s z w b` and the output at anything, the body runs and hands back the inputs
    as they were and the output at `outBuf`. -/
theorem body_triple (c : Dev nD) (E : Set ℕ) (i : grid1.Coords)
    (a1 : Memref sig .tc .vmem S8192x5 .f32) (h1 : a1.IsWhole) (a2 : Memref sig .tc .vmem S1x1 .f32) (h2 : a2.IsWhole)
    (a3 : Memref sig .tc .vmem S1x1 .f32) (h3 : a3.IsWhole) (a4 : Memref sig .tc .vmem S10x5 .f32) (h4 : a4.IsWhole)
    (a5 : Memref sig .tc .vmem S1x10 .f32) (h5 : a5.IsWhole) (a6 : Memref sig .tc .vmem S8192x10 .f32) (h6 : a6.IsWhole)
    (x : Vec F S8192x5 .f32) (s z : Vec F S1x1 .f32) (w : Vec F S10x5 .f32) (b : Vec F S1x10 .f32) (K : PUnit → sProp 𝕄) :
    iprop(owns (c : Thread nD τ) a1 fullShare x ∗ owns (c : Thread nD τ) a2 fullShare s ∗ owns (c : Thread nD τ) a3 fullShare z
        ∗ owns (c : Thread nD τ) a4 fullShare w ∗ owns (c : Thread nD τ) a5 fullShare b ∗ (∃ d, owns (c : Thread nD τ) a6 fullShare d)
        ∗ (iprop(owns (c : Thread nD τ) a1 fullShare x ∗ owns (c : Thread nD τ) a2 fullShare s ∗ owns (c : Thread nD τ) a3 fullShare z
            ∗ owns (c : Thread nD τ) a4 fullShare w ∗ owns (c : Thread nD τ) a5 fullShare b
            ∗ owns (c : Thread nD τ) a6 fullShare (outBuf x s z w b)) -∗ K ⟨⟩))
      ⊢ wp frame (wpE (defs₀ (F := F)) Variants.none c none) E (cc1__matmul_kernel i a1 h1 a2 h2 a3 h3 a4 h4 a5 h5 a6 h6) K := by
  simp only [cc1__matmul_kernel_eq_skeleton]; unfold cc1__matmul_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The pipeline's proof data -/

/-- The proof data on core `c`: the arrays as the call finds them; after the body at point `t` each input buffer at
    its block and the output buffer at `outBuf` of the five input blocks; nothing owed, full shares, and the
    invariant that only carries the scoped rest and the generator register along. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outBuf (blk1 V c 0 t) (blk1 V c 1 t) (blk1 V c 2 t) (blk1 V c 3 t) (blk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t
    = outBuf (blk1 V c 0 t) (blk1 V c 1 t) (blk1 V c 2 t) (blk1 V c 3 t) (blk1 V c 4 t) := by dsimp only [dat1]

theorem before1_0 (c : Dev nD) (t : Fin cfg1.N) (d) : (dat1 V c).before 0 t d = blk1 V c 0 t :=
  held_in0 V (dat1 V c) (A_eq1 V c 0) (after1_0 V c) t d
theorem before1_1 (c : Dev nD) (t : Fin cfg1.N) (d) : (dat1 V c).before 1 t d = blk1 V c 1 t :=
  held_in1 V (dat1 V c) (A_eq1 V c 1) (after1_1 V c) t d
theorem before1_2 (c : Dev nD) (t : Fin cfg1.N) (d) : (dat1 V c).before 2 t d = blk1 V c 2 t :=
  held_in2 V (dat1 V c) (A_eq1 V c 2) (after1_2 V c) t d
theorem before1_3 (c : Dev nD) (t : Fin cfg1.N) (d) : (dat1 V c).before 3 t d = blk1 V c 3 t :=
  held_in3 V (dat1 V c) (A_eq1 V c 3) (after1_3 V c) t d
theorem before1_4 (c : Dev nD) (t : Fin cfg1.N) (d) : (dat1 V c).before 4 t d = blk1 V c 4 t :=
  held_in4 V (dat1 V c) (A_eq1 V c 4) (after1_4 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr1

end
-- ==== Proof.KI.Run.lean ====
/-
  The whole run of @main on the TensorCores, at any float instance: the first pallas_call, nine stretches of
  host operations, the second pallas_call — and what every buffer holds at the end.

  The contents of a core's buffers are followed from the launch through the eleven segments: a pallas_call
  leaves each of its windows' arrays at what its write-backs make of it and touches nothing else; a host
  stretch leaves what its operations compute. Each pallas_call is entered with the buffers at the contents
  the segment before it left, runs its pipeline under its body obligation, and hands the buffers on. Read
  against a final state this gives every buffer's last contents — in particular the three arguments, which no
  segment writes, end as launched.

  The first pallas_call's body is a parameter here (`aft0`: what it leaves in its staging buffers at each point;
  `hbody0`: its body obligation): everything else about it is fixed.
-/
import proofs.«118362_j48954037240021_1_alg».proof.Proof.Gen.KernelIdeal.Regions
import proofs.«118362_j48954037240021_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffers as a pallas_call finds them. -/
abbrev Entry (F : FTy → Type) : Type := (c : Dev nD) → (b : Ref sig .tc) → Buf (Elt F) ((c : Thread nD τ).loc b)
/-- What the first pallas_call's body leaves in each window's staging buffer at each point. -/
abbrev After0 (F : FTy → Type) : Type :=
  Entry F → (c : Dev nD) → (w : Fin cfg0.W) → Fin cfg0.N → (cfg0.win w).block.Idx → Elt F (cfg0.win w).elt

/-- The first pipeline's proof data from what its body leaves: arrays as found, nothing owed, full shares, the
    invariant that carries the scoped rest and the generator register along. -/
def dat0 (V : Entry F) (c : Dev nD) (aft : (w : Fin cfg0.W) → Fin cfg0.N → (cfg0.win w).block.Idx → Elt F (cfg0.win w).elt) :
    Dat τ (Elt F) Unit ℕ (UR sig nD τ) ℕ cfg0 c where
  A w := V c (Pipeline.arrRef spec0 w)
  after := aft
  Φ _ := Pipeline.ΦA spec0 c
  q _ := fullShare
  owed _ := 0

theorem A_eq0 (V : Entry F) (c : Dev nD) (aft) (w : Fin cfg0.W) : (dat0 V c aft).A w = V c (Pipeline.arrRef spec0 w) := by
  dsimp only [dat0]

variable (aft0 : After0 F)
variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
abbrev V0 : Entry F := fun c b => W0 m c b
/-- After the first pallas_call: its arrays at what the pipeline leaves, every other buffer as entered. -/
def W1 (c : Dev nD) : Valuation τ sig (Elt F) :=
  Pipeline.withArrays spec0 c (W0 m c) fun w => (dat0 (V0 m) c (aft0 (V0 m) c)).arrAt w cfg0.N
theorem W1_arr (c : Dev nD) (w : Fin cfg0.W) :
    W1 aft0 m c (Proc.devRef .tc (Pipeline.arrRef spec0 w)) = (dat0 (V0 m) c (aft0 (V0 m) c)).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 aft0 m c (Proc.devRef .tc b) = W0 m c (Proc.devRef .tc b) := by
  unfold W1; exact Pipeline.withArrays_of_ne spec0 c _ _ b hb
abbrev V1 : Entry F := fun c b => W1 aft0 m c b
theorem hF0 (c : Dev nD) (w : Fin cfg0.W) : (dat0 (V0 m) c (aft0 (V0 m) c)).arrAt w cfg0.N = V1 aft0 m c (Pipeline.arrRef spec0 w) :=
  (W1_arr aft0 m c w).symm
theorem hrest0 (c : Dev nD) : ∀ b, b ∉ Finset.univ.image (Pipeline.arrRef spec0) → V1 aft0 m c b = V0 m c b :=
  fun b hb => W1_of_ne aft0 m c b fun w e => hb (Finset.mem_image.mpr ⟨w, Finset.mem_univ _, e⟩)

/-- After the host stretch `hostOps1`. -/
abbrev W2 : Dev nD → Valuation τ sig (Elt F) := fun c => StableHlo.after hostOps1 (W1 aft0 m c)
/-- After the host stretch `hostOps1_1`. -/
abbrev W3 : Dev nD → Valuation τ sig (Elt F) := fun c => StableHlo.after hostOps1_1 (W2 aft0 m c)
/-- After the host stretch `hostOps1_2`. -/
abbrev W4 : Dev nD → Valuation τ sig (Elt F) := fun c => StableHlo.after hostOps1_2 (W3 aft0 m c)
/-- After the host stretch `hostOps1_3`. -/
abbrev W5 : Dev nD → Valuation τ sig (Elt F) := fun c => StableHlo.after hostOps1_3 (W4 aft0 m c)
/-- After the host stretch `hostOps1_4`. -/
abbrev W6 : Dev nD → Valuation τ sig (Elt F) := fun c => StableHlo.after hostOps1_4 (W5 aft0 m c)
/-- After the host stretch `hostOps1_5`. -/
abbrev W7 : Dev nD → Valuation τ sig (Elt F) := fun c => StableHlo.after hostOps1_5 (W6 aft0 m c)
/-- After the host stretch `hostOps1_6`. -/
abbrev W8 : Dev nD → Valuation τ sig (Elt F) := fun c => StableHlo.after hostOps1_6 (W7 aft0 m c)
/-- After the host stretch `hostOps1_7`. -/
abbrev W9 : Dev nD → Valuation τ sig (Elt F) := fun c => StableHlo.after hostOps1_7 (W8 aft0 m c)
/-- After the host stretch `hostOps1_8`. -/
abbrev W10 : Dev nD → Valuation τ sig (Elt F) := fun c => StableHlo.after hostOps1_8 (W9 aft0 m c)

/-- The buffers as the second pallas_call finds them. -/
abbrev V10 : Entry F := fun c b => W10 aft0 m c b
/-- After the second pallas_call. -/
def W11 (c : Dev nD) : Valuation τ sig (Elt F) :=
  Pipeline.withArrays spec1 c (W10 aft0 m c) fun w => (Fr1.dat1 (V10 aft0 m) c).arrAt w cfg1.N
theorem W11_arr (c : Dev nD) (w : Fin cfg1.W) :
    W11 aft0 m c (Proc.devRef .tc (Pipeline.arrRef spec1 w)) = (Fr1.dat1 (V10 aft0 m) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 aft0 m c (Proc.devRef .tc b) = W10 aft0 m c (Proc.devRef .tc b) := by
  unfold W11; exact Pipeline.withArrays_of_ne spec1 c _ _ b hb
abbrev V11 : Entry F := fun c b => W11 aft0 m c b
theorem hF1 (c : Dev nD) (w : Fin cfg1.W) : (Fr1.dat1 (V10 aft0 m) c).arrAt w cfg1.N = V11 aft0 m c (Pipeline.arrRef spec1 w) :=
  (W11_arr aft0 m c w).symm
theorem hrest1 (c : Dev nD) : ∀ b, b ∉ Finset.univ.image (Pipeline.arrRef spec1) → V11 aft0 m c b = V10 aft0 m c b :=
  fun b hb => W11_of_ne aft0 m c b fun w e => hb (Finset.mem_image.mpr ⟨w, Finset.mem_univ _, e⟩)

/-- A buffer no host stretch writes holds between the two pallas_calls what the first one left. -/
theorem W10_of (c : Dev nD) (r : Ref sig .tc) (h1 : r ∉ hostOps1_W) (h2 : r ∉ hostOps1_1_W) (h3 : r ∉ hostOps1_2_W) (h4 : r ∉ hostOps1_3_W) (h5 : r ∉ hostOps1_4_W) (h6 : r ∉ hostOps1_5_W) (h7 : r ∉ hostOps1_6_W) (h8 : r ∉ hostOps1_7_W) (h9 : r ∉ hostOps1_8_W) :
    W10 aft0 m c (Proc.devRef .tc r) = W1 aft0 m c (Proc.devRef .tc r) :=
  calc W10 aft0 m c (Proc.devRef .tc r)
    _ = W9 aft0 m c (Proc.devRef .tc r) := StableHlo.after_of_writes_sub hostOps1_8 _ hostOps1_8_writes h9
    _ = W8 aft0 m c (Proc.devRef .tc r) := StableHlo.after_of_writes_sub hostOps1_7 _ hostOps1_7_writes h8
    _ = W7 aft0 m c (Proc.devRef .tc r) := StableHlo.after_of_writes_sub hostOps1_6 _ hostOps1_6_writes h7
    _ = W6 aft0 m c (Proc.devRef .tc r) := StableHlo.after_of_writes_sub hostOps1_5 _ hostOps1_5_writes h6
    _ = W5 aft0 m c (Proc.devRef .tc r) := StableHlo.after_of_writes_sub hostOps1_4 _ hostOps1_4_writes h5
    _ = W4 aft0 m c (Proc.devRef .tc r) := StableHlo.after_of_writes_sub hostOps1_3 _ hostOps1_3_writes h4
    _ = W3 aft0 m c (Proc.devRef .tc r) := StableHlo.after_of_writes_sub hostOps1_2 _ hostOps1_2_writes h3
    _ = W2 aft0 m c (Proc.devRef .tc r) := StableHlo.after_of_writes_sub hostOps1_1 _ hostOps1_1_writes h2
    _ = W1 aft0 m c (Proc.devRef .tc r) := StableHlo.after_of_writes_sub hostOps1 _ hostOps1_writes h1

/-- The activations end as launched: both pallas_calls only read them, no host operation writes them. -/
theorem W11_main_arg0 (c : Dev nD) : W11 aft0 m c (Proc.devRef .tc main_arg0) = m ((c : Thread nD τ).loc main_arg0) :=
  calc W11 aft0 m c (Proc.devRef .tc main_arg0)
    _ = W10 aft0 m c (Proc.devRef .tc main_arg0) :=
        (W11_arr aft0 m c 0).trans (((Fr1.dat1 (V10 aft0 m) c).arrAt_in 0 rfl _).trans (Fr1.A_eq1 (V10 aft0 m) c 0))
    _ = W1 aft0 m c (Proc.devRef .tc main_arg0) := W10_of aft0 m c main_arg0 (by decide) (by decide) (by decide) (by decide) (by decide) (by decide) (by decide) (by decide) (by decide)
    _ = W0 m c (Proc.devRef .tc main_arg0) :=
        (W1_arr aft0 m c 0).trans (((dat0 (V0 m) c (aft0 (V0 m) c)).arrAt_in 0 rfl _).trans (A_eq0 (V0 m) c _ 0))
    _ = m ((c : Thread nD τ).loc main_arg0) := rfl
/-- The weights end as launched: no window stages them, no host operation writes them. -/
theorem W11_main_arg1 (c : Dev nD) : W11 aft0 m c (Proc.devRef .tc main_arg1) = m ((c : Thread nD τ).loc main_arg1) :=
  calc W11 aft0 m c (Proc.devRef .tc main_arg1)
    _ = W10 aft0 m c (Proc.devRef .tc main_arg1) := W11_of_ne aft0 m c main_arg1 (by decide)
    _ = W1 aft0 m c (Proc.devRef .tc main_arg1) := W10_of aft0 m c main_arg1 (by decide) (by decide) (by decide) (by decide) (by decide) (by decide) (by decide) (by decide) (by decide)
    _ = W0 m c (Proc.devRef .tc main_arg1) := W1_of_ne aft0 m c main_arg1 (by decide)
    _ = m ((c : Thread nD τ).loc main_arg1) := rfl
/-- The bias ends as launched. -/
theorem W11_main_arg2 (c : Dev nD) : W11 aft0 m c (Proc.devRef .tc main_arg2) = m ((c : Thread nD τ).loc main_arg2) :=
  calc W11 aft0 m c (Proc.devRef .tc main_arg2)
    _ = W10 aft0 m c (Proc.devRef .tc main_arg2) := W11_of_ne aft0 m c main_arg2 (by decide)
    _ = W1 aft0 m c (Proc.devRef .tc main_arg2) := W10_of aft0 m c main_arg2 (by decide) (by decide) (by decide) (by decide) (by decide) (by decide) (by decide) (by decide) (by decide)
    _ = W0 m c (Proc.devRef .tc main_arg2) := W1_of_ne aft0 m c main_arg2 (by decide)
    _ = m ((c : Thread nD τ).loc main_arg2) := rfl

/-! ## The proof data family and the thread state -/

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V0 m) c (aft0 (V0 m) c)
  | ⟨1, _⟩ => fun c => Fr1.dat1 (V10 aft0 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at its last contents, the generator register at some state. -/
abbrev Tₙ (c : Dev nD) : sProp 𝕄 := iprop(StableHlo.held (c : Thread nD τ) (Pipeline.ucRefs τ sig) (W11 aft0 m c) ∗ ∃ r, prngReg c r)

/-! ## The pallas_calls as segments -/

set_option backward.isDefEq.respectTransparency.types false in
/-- The first pallas_call over the thread state: entered from the launch contents, left at `W1`. Its arrays are split
    out of the unscoped buffers and put back at the exit contents; the generator register goes into the invariant and
    comes out; nothing is owed; the kernel has no semaphore of its own. -/
def reg0 (hbody0 : ∀ (V : Entry F) (c : Dev nD), BodyObligation (dat0 V c (aft0 V c)) (defs₀ (F := F)) Variants.none () Set.univ) :
    Pipeline.RegionSeg (pcfgs (F := F)) adm (pdats aft0 m) () defs₀ 𝒱₀ L lv 0 where
  win := launch0.win.to₀
  block_pos := launch0.block_pos
  stage_whole := launch0.stage_whole
  K := PEmpty
  osem k := k.elim
  ho := Pipeline.OwnSemFacts.none _
  hbody c := (hbody0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 aft0 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats aft0 m) launch0.win launch0.arr_whole c
      ((pdats aft0 m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats aft0 m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats aft0 m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats aft0 m) ((pdats aft0 m 0 c).share_full fun _ => rfl)
      (V0 m c) (V1 aft0 m c) ((pdats aft0 m 0 c).arrAt · cfg0.N) (hF0 aft0 m c) (hrest0 aft0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from `W10`, left at `W11`, which the launch reads at the end. -/
def reg1 : Pipeline.RegionSeg (pcfgs (F := F)) adm (pdats aft0 m) () defs₀ 𝒱₀ L lv 1 where
  win := launch1.win.to₀
  block_pos := launch1.block_pos
  stage_whole := launch1.stage_whole
  K := PEmpty
  osem k := k.elim
  ho := Pipeline.OwnSemFacts.none _
  hbody c := (Fr1.body_obligation1 (V10 aft0 m) c).loose
  hwaits := Pipeline.hwaits_of_owed_zero _ _ _ _ L lv 1 fun _ _ => rfl
  pre c := iprop(StableHlo.held (c : Thread nD τ) (Pipeline.ucRefs τ sig) (W10 aft0 m c) ∗ R c)
  post c := iprop(Tₙ aft0 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V10 aft0 m c)
  hentry c := by
    rw [Pipeline.ownSems0_none]
    have hsplit := Pipeline.arrays_of_unscopedBufs (p := 1) (pcfgs (F := F)) adm (pdats aft0 m) launch1.win launch1.arr_whole c
      ((pdats aft0 m 1 c).share_full fun _ => rfl) (V10 aft0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats aft0 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats aft0 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats aft0 m) ((pdats aft0 m 1 c).share_full fun _ => rfl)
      (V10 aft0 m c) (V11 aft0 m c) ((pdats aft0 m 1 c).arrAt · cfg1.N) (hF1 aft0 m c) (hrest1 aft0 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eleven segments in order. -/
abbrev segs (hbody0 : ∀ (V : Entry F) (c : Dev nD), BodyObligation (dat0 V c (aft0 V c)) (defs₀ (F := F)) Variants.none () Set.univ) :
    List (Pipeline.Seg (pcfgs (F := F)) adm (pdats aft0 m) () defs₀ 𝒱₀ L lv) :=
  [ .region (reg0 aft0 m hbody0),
    .host (hseg hostOps1 hostOps1_sub hostOps1_fresh (W1 aft0 m)),
    .host (hseg hostOps1_1 hostOps1_1_sub hostOps1_1_fresh (W2 aft0 m)),
    .host (hseg hostOps1_2 hostOps1_2_sub hostOps1_2_fresh (W3 aft0 m)),
    .host (hseg hostOps1_3 hostOps1_3_sub hostOps1_3_fresh (W4 aft0 m)),
    .host (hseg hostOps1_4 hostOps1_4_sub hostOps1_4_fresh (W5 aft0 m)),
    .host (hseg hostOps1_5 hostOps1_5_sub hostOps1_5_fresh (W6 aft0 m)),
    .host (hseg hostOps1_6 hostOps1_6_sub hostOps1_6_fresh (W7 aft0 m)),
    .host (hseg hostOps1_7 hostOps1_7_sub hostOps1_7_fresh (W8 aft0 m)),
    .host (hseg hostOps1_8 hostOps1_8_sub hostOps1_8_fresh (W9 aft0 m)),
    .region (reg1 aft0 m) ]

/-- @main is the run of the segments. -/
theorem main_run (hbody0 : ∀ (V : Entry F) (c : Dev nD), BodyObligation (dat0 V c (aft0 V c)) (defs₀ (F := F)) Variants.none () Set.univ) (c : Dev nD) : main (F := F) c = Pipeline.Seg.run (segs aft0 m hbody0) := (main_chain c).trans (by chain_rfl)

set_option backward.isDefEq.respectTransparency.types false in
/-- From any memory with zero counters every weakly fair execution of @main on the TensorCores terminates, nothing
    faulting, and in every final state each unscoped buffer holds its last contents `W11`. -/
theorem run_all (hbody0 : ∀ (V : Entry F) (c : Dev nD), BodyObligation (dat0 V c (aft0 V c)) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = W11 aft0 m c b) :=
  Pipeline.θ_run_regions_kit (pcfgs (F := F)) adm (pdats aft0 m) () cellOf_inj emb₁ defs₀ 𝒱₀ L lv m ρ main (segs aft0 m hbody0)
    (fun c Q => by rw [main_run aft0 m hbody0 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ aft0 m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 aft0 m c b)
    (hfin := fun c s' => by
      iintro ⟨⟨Hh, -⟩, HSI⟩
      unfold StableHlo.held
      imodintro
      iapply (pointsTo_read_all (Pipeline.ucRefs τ sig) (fun b => (((c : Thread nD τ)).1, b)) (W11 aft0 m c) s')
      isplitl [Hh] <;> iassumption)
    (hQ := fun s h => h)

/-- The frame: the three arguments end as launched. -/
theorem frame (hbody0 : ∀ (V : Entry F) (c : Dev nD), BodyObligation (dat0 V c (aft0 V c)) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W11_main_arg0 aft0 m c),
     (h c _ (mem_uc main_arg1 (by decide))).trans (W11_main_arg1 aft0 m c),
     (h c _ (mem_uc main_arg2 (by decide))).trans (W11_main_arg2 aft0 m c)⟩) (run_all aft0 m ρ hbody0)

/-- The result array ends at what the second pipeline's write-backs make of it. -/
theorem result_eq (c : Dev nD) : W11 aft0 m c (Proc.devRef .tc main_v30) = (Fr1.dat1 (V10 aft0 m) c).arrAt 5 cfg1.N :=
  W11_arr aft0 m c 5

end Cert.KernelIdeal.Run

end
-- ==== Proof.KI.Region0.lean ====
/- The body of the first pipeline (the running minimum and maximum over the blocks of the input), at any
   float instance: what each staging buffer holds after the body at each grid point, and the proof that the
   body, run at a point on the buffers as they then are, leaves exactly that.

   The body computes the minimum and the maximum of its block; at the first grid point it stores them into the
   two one-element output buffers, at every later point it stores the minimum (maximum) of what the buffer held
   and the block's. The two conditions are complementary, so every point stores into both outputs. -/
import proofs.«118362_j48954037240021_1_alg».proof.Proof.Gen.KernelIdeal.Launch
import proofs.«118362_j48954037240021_1_alg».proof.Proof.Gen.KernelIdeal.Skeleton
import proofs.«118362_j48954037240021_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Fr0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole input block's rectangle and the whole 1x1 buffer's rectangle, as the body's accesses spell them. -/
abbrev rIn : Rect S16384x5 := Rect.unit (s := S16384x5) ![0, 0] S16384x5.size inb_S16384x5_S16384x5_0_0
abbrev rAcc : Rect S1x1 := Rect.unit (s := S1x1) ![0, 0] S1x1.size inb_S1x1_S1x1_0_0

theorem zeros2 : (![0, 0] : Fin 2 → ℕ) = fun _ => 0 := by
  funext a; fin_cases a <;> rfl

/-- One store through the whole 1x1 rectangle covers the buffer, -/
theorem coverAcc (p : Vec F S1x1 .f32) (y : S1x1.Idx) :
    ∃ pc ∈ ([⟨rAcc, p⟩] : List (View.Piece (Elt F) S1x1 .f32)), y ∈ pc.1.set :=
  View.cover_of_tiled [⟨rAcc, p⟩] S1x1.size (by rfl) y
/-- and leaves its payload there; -/
theorem canonAcc (p : Vec F S1x1 .f32) : View.canon [(⟨rAcc, p⟩ : View.Piece (Elt F) S1x1 .f32)] = p :=
  View.canon_unit_zero (S := S1x1) zeros2 inb_S1x1_S1x1_0_0 p
/-- a load through a whole rectangle reads the contents. -/
theorem ldIn (x : Vec F S16384x5 .f32) : View.ld x rIn = x :=
  View.ld_unit_zero (S := S16384x5) zeros2 inb_S16384x5_S16384x5_0_0 x
theorem ldAcc (x : Vec F S1x1 .f32) : View.ld x rAcc = x :=
  View.ld_unit_zero (S := S1x1) zeros2 inb_S1x1_S1x1_0_0 x

/-! ## The body's two runs -/

set_option maxHeartbeats 1000000 in
/-- At a point that takes the first conditional only: the body, on whole staging memrefs, the input's at
    contents `x0` and the outputs' at anything, leaves the block's minimum in the first output's buffer and its
    maximum in the second's. -/
theorem run_first (c : Dev nD) (E : Set ℕ) (i : grid0.Coords)
    (arg1 : Memref sig .tc .vmem S16384x5 .f32) (harg1 : arg1.IsWhole)
    (arg2 : Memref sig .tc .vmem S1x1 .f32) (harg2 : arg2.IsWhole)
    (arg3 : Memref sig .tc .vmem S1x1 .f32) (harg3 : arg3.IsWhole)
    (hc1 : k0_cond1 i = 1#1) (hc2 : ¬ k0_cond2 i = 1#1)
    (x0 : Vec F S16384x5 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0
            ∗ owns (c : Thread nD τ) arg2 fullShare (k0_pay1 x0)
            ∗ owns (c : Thread nD τ) arg3 fullShare (k0_pay2 x0)) -∗ K ⟨⟩))
      ⊢ wp frame (wpE (defs₀ (F := F)) Variants.none c none) E (cc0__minmax_kernel i arg1 harg1 arg2 harg2 arg3 harg3) K := by
  simp only [cc0__minmax_kernel_eq_skeleton]; unfold cc0__minmax_kernel_skel
  unfold owns
  iintro ⟨⟨%f0, %hf0, H0⟩, ⟨%d1, %f1, -, H1⟩, ⟨%d2, %f2, -, H2⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact (View.read_writes_eq_canon _ _ _ (coverAcc _)).trans
      ((canonAcc (k0_pay1 (View.ld (arg1.view.read (Elt F) f0) rIn))).trans (congrArg k0_pay1 (ldIn _)))
  · iexists _; isplitr
    swap; · iexact H2
    ipureintro
    exact (View.read_writes_eq_canon _ _ _ (coverAcc _)).trans
      ((canonAcc (k0_pay2 (View.ld (arg1.view.read (Elt F) f0) rIn))).trans (congrArg k0_pay2 (ldIn _)))

set_option maxHeartbeats 1000000 in
/-- At a point that takes the second conditional only: with the outputs' buffers at contents `a1`, `a2`, the
    body leaves the minimum of `a1` and the block's in the first and the maximum of `a2` and the block's in
    the second. -/
theorem run_later (c : Dev nD) (E : Set ℕ) (i : grid0.Coords)
    (arg1 : Memref sig .tc .vmem S16384x5 .f32) (harg1 : arg1.IsWhole)
    (arg2 : Memref sig .tc .vmem S1x1 .f32) (harg2 : arg2.IsWhole)
    (arg3 : Memref sig .tc .vmem S1x1 .f32) (harg3 : arg3.IsWhole)
    (hc1 : ¬ k0_cond1 i = 1#1) (hc2 : k0_cond2 i = 1#1)
    (x0 : Vec F S16384x5 .f32) (a1 a2 : Vec F S1x1 .f32) (K : PUnit → sProp 𝕄) :
    iprop(owns (c : Thread nD τ) arg1 fullShare x0 ∗ owns (c : Thread nD τ) arg2 fullShare a1 ∗ owns (c : Thread nD τ) arg3 fullShare a2
        ∗ (iprop(owns (c : Thread nD τ) arg1 fullShare x0
            ∗ owns (c : Thread nD τ) arg2 fullShare (k0_pay3 x0 a1)
            ∗ owns (c : Thread nD τ) arg3 fullShare (k0_pay4 x0 a2)) -∗ K ⟨⟩))
      ⊢ wp frame (wpE (defs₀ (F := F)) Variants.none c none) E (cc0__minmax_kernel i arg1 harg1 arg2 harg2 arg3 harg3) K := by
  simp only [cc0__minmax_kernel_eq_skeleton]; unfold cc0__minmax_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact (View.read_writes_eq_canon _ _ _ (coverAcc _)).trans
      ((canonAcc (k0_pay3 (View.ld (arg1.view.read (Elt F) f0) rIn) (View.ld (arg2.view.read (Elt F) f1) rAcc))).trans
        (congrArg₂ k0_pay3 (ldIn _) (ldAcc _)))
  · iexists _; isplitr
    swap; · iexact H2
    ipureintro
    exact (View.read_writes_eq_canon _ _ _ (coverAcc _)).trans
      ((canonAcc (k0_pay4 (View.ld (arg1.view.read (Elt F) f0) rIn) (View.ld (arg3.view.read (Elt F) f2) rAcc))).trans
        (congrArg₂ k0_pay4 (ldIn _) (ldAcc _)))

/-! ## Which conditional a point takes -/

/-- The first conditional is taken at the first point only, -/
theorem cond1_iff : ∀ t : Fin cfg0.N, k0_cond1 (grid0.coords t) = 1#1 ↔ t.val = 0 :=
  (by decide +kernel : ∀ t : Fin grid0.N, k0_cond1 (grid0.coords t) = 1#1 ↔ t.val = 0)
/-- and the second at every other point. -/
theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)

/-- The two conditions are complementary as words: one of them holds whatever the coordinate. -/
theorem cond_or (a : BitVec 32) :
    (!(Scalar.cmpi .ne (Scalar.extui (Scalar.cmpi .eq a 0#32)) 0#32 == 1#1)
      && !(Scalar.cmpi .ne (Scalar.extui (Scalar.cmpi .ne a 0#32)) 0#32 == 1#1)) = false := by
  by_cases h : a = 0#32
  · subst h; decide
  · have hb : (a == 0#32) = false := by simpa using h
    simp only [Scalar.cmpi, IntOp.cmpi, bne, hb]
    decide

/-- So no point is idle for any window. -/
theorem hlive0 : ∀ i : grid0.Coords, cfg0.idle 0 i = false := fun _ => rfl
theorem hlive1 : ∀ i : grid0.Coords, cfg0.idle 1 i = false := fun i => cond_or _
theorem hlive2 : ∀ i : grid0.Coords, cfg0.idle 2 i = false := fun i => cond_or _

section Regions
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over `V`
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl hlive0 (fun _ _ _ => rfl) (fun t => by rw [hafter]; unfold Dat.blockOf iblk0; rw [hA]; try rfl) t d).trans
    (by unfold Dat.fetched Dat.blockOf iblk0; rw [hA]; try rfl)

/-! ## What the outputs hold after each point -/

/-- The running minimum: after the first point the first block's minimum, after each later point the minimum of
    what the point before left and the block's. -/
def accMin (c : Dev nD) : (n : ℕ) → n < cfg0.N → Vec F S1x1 .f32
  | 0, hn => k0_pay1 (iblk0 V c 0 ⟨0, hn⟩)
  | n + 1, hn => k0_pay3 (iblk0 V c 0 ⟨n + 1, hn⟩) (accMin c n (Nat.lt_of_succ_lt hn))

/-- The running maximum, likewise. -/
def accMax (c : Dev nD) : (n : ℕ) → n < cfg0.N → Vec F S1x1 .f32
  | 0, hn => k0_pay2 (iblk0 V c 0 ⟨0, hn⟩)
  | n + 1, hn => k0_pay4 (iblk0 V c 0 ⟨n + 1, hn⟩) (accMax c n (Nat.lt_of_succ_lt hn))

theorem accMin_first (c : Dev nD) (t : Fin cfg0.N) (h0 : t.val = 0) :
    accMin V c t.val t.isLt = k0_pay1 (iblk0 V c 0 t) := by
  obtain ⟨n, hn⟩ := t
  cases n with
  | zero => exact rfl
  | succ n => exact absurd h0 (Nat.succ_ne_zero n)

theorem accMin_later (c : Dev nD) (t : Fin cfg0.N) (h0 : t.val ≠ 0) :
    accMin V c t.val t.isLt = k0_pay3 (iblk0 V c 0 t) (accMin V c (t.val - 1) (Nat.lt_of_le_of_lt (Nat.sub_le _ _) t.isLt)) := by
  obtain ⟨n, hn⟩ := t
  cases n with
  | zero => exact absurd rfl h0
  | succ n => exact rfl

theorem accMax_first (c : Dev nD) (t : Fin cfg0.N) (h0 : t.val = 0) :
    accMax V c t.val t.isLt = k0_pay2 (iblk0 V c 0 t) := by
  obtain ⟨n, hn⟩ := t
  cases n with
  | zero => exact rfl
  | succ n => exact absurd h0 (Nat.succ_ne_zero n)

theorem accMax_later (c : Dev nD) (t : Fin cfg0.N) (h0 : t.val ≠ 0) :
    accMax V c t.val t.isLt = k0_pay4 (iblk0 V c 0 t) (accMax V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of pipeline 0 on core `c`: the arrays as the region finds them; after the body at point `t`
    the input's buffer at its block, the outputs' at the running minimum and maximum; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accMin V c t.val t.isLt
    | ⟨2, _⟩ => accMax V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = accMin V c t.val t.isLt := by dsimp only [dat0]
theorem after0_2 (c : Dev nD) (t : Fin cfg0.N) : (dat0 V c).after 2 t = accMax V c t.val t.isLt := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- After the first point each output's current staging buffer holds what the body left at the point before: the
    buffer is written back at the last point only, and the window is never idle. -/
theorem before0_1_later (c : Dev nD) (t : Fin cfg0.N) (h0 : t.val ≠ 0) (d) :
    (dat0 V c).before 1 t d = accMin V c (t.val - 1) (Nat.lt_of_le_of_lt (Nat.sub_le _ _) t.isLt) := by
  have hN : t.val < 512 := lt_of_lt_of_eq t.isLt (show cfg0.N = 512 from N_0)
  rw [Dat.before_out_kept _ 1 rfl t h0 (Bool.eq_false_iff.mpr fun h => by have := (flush0_1 _).mp h; dsimp only at this; omega)
    hlive1 (fun _ _ => rfl)]
  dsimp only [dat0]

theorem before0_2_later (c : Dev nD) (t : Fin cfg0.N) (h0 : t.val ≠ 0) (d) :
    (dat0 V c).before 2 t d = accMax V c (t.val - 1) (Nat.lt_of_le_of_lt (Nat.sub_le _ _) t.isLt) := by
  have hN : t.val < 512 := lt_of_lt_of_eq t.isLt (show cfg0.N = 512 from N_0)
  rw [Dat.before_out_kept _ 2 rfl t h0 (Bool.eq_false_iff.mpr fun h => by have := (flush0_2 _).mp h; dsimp only at this; omega)
    hlive2 (fun _ _ => rfl)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the input's memref holds its block; at the first point the first run applies, the
    outputs' buffers at anything; at a later point the outputs' buffers hold what the point before left, and the
    second run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [accMin_first V c t h0, accMax_first V c t h0]
    iintro ⟨HΦ, Ho, ⟨%d0, H0⟩, ⟨%d1, H1⟩, ⟨%d2, H2⟩⟩
    iapply (run_first c Set.univ (grid0.coords t) _ _ _ _ _ _ ((cond1_iff t).mpr h0) (fun h => (cond2_iff t).mp h h0) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [accMin_later V c t h0, accMax_later V c t h0]
    simp only [before0_1_later V c t h0, before0_2_later V c t h0]
    iintro ⟨HΦ, Ho, ⟨%d0, H0⟩, ⟨%d1, H1⟩, ⟨%d2, H2⟩⟩
    iapply (run_later c Set.univ (grid0.coords t) _ _ _ _ _ _ (fun h => h0 ((cond1_iff t).mp h)) ((cond2_iff t).mpr h0) (iblk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point: no window is idle anywhere, so each is handed back at what
    the body leaves. -/
theorem body_obligation0 (c : Dev nD) : BodyObligation (dat0 (F := F) V c) (defs₀ (F := F)) Variants.none () Set.univ := fun t => by
  rw [bigSep_W0, bigSep_W0]
  simp only []
  -- both output windows' idle entries are the same word expression, false at every coordinate
  rw [show idle0 1 (grid0.coords t) = false from cond_or _]
  simp only []
  exact sound_body0 V c t

end Regions

end Cert.KernelIdeal.Fr0

end
-- ==== Proof.KI.Body0.lean ====
/-
  The first pallas_call's body as the run takes it: what it leaves in the staging buffers at each point, and its
  body obligation over the run's proof data — at any float instance.
-/
import proofs.«118362_j48954037240021_1_alg».proof.Proof.KI.Run
import proofs.«118362_j48954037240021_1_alg».proof.Proof.KI.Region0

noncomputable section

namespace Cert.KernelIdeal.Body0

open Cert.KernelIdeal Cert.KernelIdeal.Gen
open Idealize.ShloMosaic Idealize.ShloMosaic.TcCoe Idealize.SL.Sem

variable {F : FTy → Type} [FloatOps F]

/-- What the first pallas_call's body leaves in its staging buffers: the input's block, the running minimum, the
    running maximum. -/
def aft0 : Run.After0 F := fun V c => (Fr0.dat0 V c).after

/-- Its body obligation, over the run's proof data (the same data: arrays as found, nothing owed, full shares). -/
theorem hbody0 (V : Run.Entry F) (c : Dev nD) :
    Pipeline.BodyObligation (Run.dat0 V c (aft0 V c)) (defs₀ (F := F)) Variants.none () Set.univ :=
  Fr0.body_obligation0 V c

/-- The frame of the whole program: every weakly fair execution terminates, nothing faults, the arguments end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Run.frame aft0 m ρ hbody0

end Cert.KernelIdeal.Body0

end
-- ==== Proof.Spec.lean ====
/-
  The one function both programs compute, written over the extended reals with no program in sight.

  A tensor is quantized to sixteen levels between its least entry `lo` and its greatest `hi`: the step is
  `(hi - lo) / 15`, never below the floor `1e-8`; the zero point is `-lo / step` rounded to the nearest
  integer (ties to even); an entry `v` becomes `(clamp (round (v / step) + zero) 0 15 - zero) * step`. The
  result is the product of the quantized activations with the transposed quantized weights, plus the bias:
  at row `r` and output `o`, the sum over the five features `k` of `fq x[r,k] · fq W[o,k]`, plus `b[o]`.
  The three literals are kept as their f32 words: the same word stands on both sides and is never evaluated.
-/
import Idealize.ShloMosaic.PureOps.Ideal
import Idealize.ShloMosaic.Lib.ValueIdx

noncomputable section

namespace Cert.Spec

open Idealize.ShloMosaic Idealize.ShloMosaic.ValueIdx

/-- The top level, 15. -/
def top : EReal := Ideal.ofBits .f32 0x41700000#32
/-- The floor on the step, the f32 nearest 1e-8. -/
def floorStep : EReal := Ideal.ofBits .f32 0x322BCC77#32
/-- The bottom level, 0 (as its word). -/
def bottom : EReal := Ideal.ofBits .f32 0x00000000#32

/-- Rounding to the nearest integer, ties to even, on the extended reals. -/
def rne (v : EReal) : EReal := Ideal.liftRound Ideal.roundHalfEven v

/-- The quantization step of a tensor whose entries range over `[lo, hi]`. -/
def step (lo hi : EReal) : EReal := max (Ideal.div (hi - lo) top) floorStep

/-- The zero point: the level that stands for the real number 0. -/
def zeroPoint (lo s : EReal) : EReal := rne (Ideal.div (-lo) s)

/-- Quantize and dequantize one entry `v` at step `s` and zero point `z`. -/
def fq (s z v : EReal) : EReal := (min top (max bottom (rne (Ideal.div v s) + z)) - z) * s

/-- The least and the greatest entry of a tensor (the empty tensor's are `⊤` and `⊥`). -/
def least {ι : Type} [Fintype ι] (x : ι → EReal) : EReal := Finset.univ.inf x
def greatest {ι : Type} [Fintype ι] (x : ι → EReal) : EReal := Finset.univ.sup x

/-- The quantized linear layer at output index `(r, o)`, given the ranges `[lo, hi]` of the activations and
    `[wlo, whi]` of the weights. -/
def out (lo hi wlo whi : EReal) (x : (⟨2, ![8388608, 5]⟩ : Shape).Idx → EReal) (W : (⟨2, ![10, 5]⟩ : Shape).Idx → EReal)
    (b : (⟨1, ![10]⟩ : Shape).Idx → EReal) (r : Fin 8388608) (o : Fin 10) : EReal :=
  (∑ k : Fin 5, fq (step lo hi) (zeroPoint lo (step lo hi)) (x (ix2 r k))
      * fq (step wlo whi) (zeroPoint wlo (step wlo whi)) (W (ix2 o k)))
    + b (ix1 o)

end Cert.Spec

end
-- ==== Proof.MinMaxFold.lean ====
/-
  The range of a big array, block by block.

  The least entry of an array is the least of the least entries of its blocks, whatever the blocks are (an infimum
  over a product of index sets is the iterated infimum), and likewise for the greatest. A walk over the blocks that
  keeps a running minimum therefore ends at the least entry of the whole array. Here the array has 8388608 rows of 5
  entries, cut into 512 blocks of 16384 consecutive rows; what the first kernel function stores for one block is that
  block's least (greatest) entry, or the minimum (maximum) of it and the value stored before.
-/
import proofs.«118362_j48954037240021_1_alg».proof.Proof.Gen.KernelIdeal.Skeleton
import proofs.«118362_j48954037240021_1_alg».proof.Proof.Spec
import Idealize.ShloMosaic.PureOps.Ideal.Laws
import Idealize.ShloMosaic.Lib.ValueIdx
import Idealize.ShloMosaic.Lib.Pipeline.Value

noncomputable section

namespace Cert.MinMaxFold

open Idealize.ShloMosaic Idealize.ShloMosaic.ValueIdx

/-! ## Regrouping: the least entry of an array is the least of the least entries of its blocks -/

/-- If the index set `ι` is cut into blocks `t : κ`, each enumerated by `β` (through the bijection `e`), the least
    entry over `ι` is the least, over the blocks, of each block's least entry: an infimum over a product is the
    iterated infimum. -/
theorem least_blocks {ι κ β : Type} [Fintype ι] [Fintype κ] [Fintype β] (e : κ × β ≃ ι) (x : ι → EReal) :
    Cert.Spec.least x = Finset.univ.inf (fun t : κ => Cert.Spec.least (fun y : β => x (e (t, y)))) := by
  simp only [Cert.Spec.least, Finset.inf_univ_eq_iInf]
  rw [← e.iInf_comp, iInf_prod]

/-- The same for the greatest entry. -/
theorem greatest_blocks {ι κ β : Type} [Fintype ι] [Fintype κ] [Fintype β] (e : κ × β ≃ ι) (x : ι → EReal) :
    Cert.Spec.greatest x = Finset.univ.sup (fun t : κ => Cert.Spec.greatest (fun y : β => x (e (t, y)))) := by
  simp only [Cert.Spec.greatest, Finset.sup_univ_eq_iSup]
  rw [← e.iSup_comp, iSup_prod]

/-! ## The running form -/

/-- A sequence that starts at `m 0` and at each step takes the minimum with the next `m` is, at step `n`, the least of
    `m 0, …, m n` (as long as the recursion holds up to `n`: it is only asked below the bound `N`). -/
theorem running_min (N : ℕ) (m a : ℕ → EReal) (h0 : a 0 = m 0)
    (hs : ∀ n, n + 1 < N → a (n + 1) = min (a n) (m (n + 1))) :
    ∀ n, n < N → a n = (Finset.range (n + 1)).inf m := by
  intro n
  induction n with
  | zero => intro _; simp [h0]
  | succ n ih =>
    intro hn
    rw [hs n hn, ih (by omega), Finset.range_add_one (n := n + 1), Finset.inf_insert, inf_comm]

/-- The same with the maximum. -/
theorem running_max (N : ℕ) (m a : ℕ → EReal) (h0 : a 0 = m 0)
    (hs : ∀ n, n + 1 < N → a (n + 1) = max (a n) (m (n + 1))) :
    ∀ n, n < N → a n = (Finset.range (n + 1)).sup m := by
  intro n
  induction n with
  | zero => intro _; simp [h0]
  | succ n ih =>
    intro hn
    rw [hs n hn, ih (by omega), Finset.range_add_one (n := n + 1), Finset.sup_insert, sup_comm]

/-- The least of `m 0, …, m (N-1)` over the naturals below `N` is the least over `Fin N`. -/
theorem inf_range_eq_univ (N : ℕ) (m : ℕ → EReal) :
    (Finset.range N).inf m = Finset.univ.inf (fun t : Fin N => m t.val) := by
  apply le_antisymm
  · exact Finset.le_inf fun t _ => Finset.inf_le (Finset.mem_range.2 t.isLt)
  · exact Finset.le_inf fun n hn =>
      Finset.inf_le (f := fun t : Fin N => m t.val) (Finset.mem_univ (⟨n, Finset.mem_range.1 hn⟩ : Fin N))

/-- The greatest of `m 0, …, m (N-1)` over the naturals below `N` is the greatest over `Fin N`. -/
theorem sup_range_eq_univ (N : ℕ) (m : ℕ → EReal) :
    (Finset.range N).sup m = Finset.univ.sup (fun t : Fin N => m t.val) := by
  apply le_antisymm
  · exact Finset.sup_le fun n hn =>
      Finset.le_sup (f := fun t : Fin N => m t.val) (Finset.mem_univ (⟨n, Finset.mem_range.1 hn⟩ : Fin N))
  · exact Finset.sup_le fun t _ => Finset.le_sup (Finset.mem_range.2 t.isLt)

/-! ## This kernel's blocks: 512 blocks of 16384 rows -/

/-- Row `16384·t + p` of the big array is row `p` of block `t`: the bijection between (block, index within the
    block) and the big array's indices. -/
def blockEquiv : Fin 512 × (⟨2, ![16384, 5]⟩ : Shape).Idx ≃ (⟨2, ![8388608, 5]⟩ : Shape).Idx where
  toFun p := ix2 (⟨16384 * p.1.val + (p.2 0).val, by have := idx2_lt0 p.2; have := p.1.isLt; omega⟩ : Fin 8388608) (p.2 1)
  invFun r := ((⟨(r 0).val / 16384, by have := idx2_lt0 r; omega⟩ : Fin 512),
    ix2 (⟨(r 0).val % 16384, Nat.mod_lt _ (by norm_num)⟩ : Fin 16384) (r 1))
  left_inv := by
    rintro ⟨t, y⟩
    have hy := idx2_lt0 y
    refine Prod.ext (Fin.ext ?_) ?_
    · show (16384 * t.val + (y 0).val) / 16384 = t.val
      omega
    · show ix2 (⟨(16384 * t.val + (y 0).val) % 16384, _⟩ : Fin 16384) (y 1) = y
      refine (funext fun a => ?_ : _ = ix2 (y 0) (y 1)).trans (eq_ix2 y).symm
      match a with
      | ⟨0, _⟩ => exact Fin.ext (show (16384 * t.val + (y 0).val) % 16384 = (y 0).val by omega)
      | ⟨1, _⟩ => rfl
  right_inv := by
    intro r
    have hr := idx2_lt0 r
    refine (funext fun a => ?_ : _ = ix2 (r 0) (r 1)).trans (eq_ix2 r).symm
    match a with
    | ⟨0, _⟩ => exact Fin.ext (show 16384 * ((r 0).val / 16384) + (r 0).val % 16384 = (r 0).val by omega)
    | ⟨1, _⟩ => rfl

/-- The bijection at a pair, spelled out. -/
theorem blockEquiv_apply (t : Fin 512) (y : (⟨2, ![16384, 5]⟩ : Shape).Idx) :
    blockEquiv (t, y)
      = ix2 (⟨16384 * t.val + (y 0).val, by have := idx2_lt0 y; have := t.isLt; omega⟩ : Fin 8388608) (y 1) := rfl

/-- Walking the 512 blocks in order, starting from block 0's least entry and taking at each later block the minimum of
    the running value and that block's least entry, ends at the least entry of the whole array. -/
theorem least_of_blocks (x : (⟨2, ![8388608, 5]⟩ : Shape).Idx → EReal) (acc : ℕ → EReal)
    (h0 : acc 0 = Cert.Spec.least (fun y => x (blockEquiv ((0 : Fin 512), y))))
    (hs : ∀ n (h : n + 1 < 512), acc (n + 1)
        = min (acc n) (Cert.Spec.least (fun y => x (blockEquiv ((⟨n + 1, h⟩ : Fin 512), y))))) :
    acc 511 = Cert.Spec.least x := by
  let m : ℕ → EReal := fun n =>
    if h : n < 512 then Cert.Spec.least (fun y => x (blockEquiv ((⟨n, h⟩ : Fin 512), y))) else ⊤
  have hm : ∀ n (h : n < 512), m n = Cert.Spec.least (fun y => x (blockEquiv ((⟨n, h⟩ : Fin 512), y))) :=
    fun n h => by simp only [m, dif_pos h]
  have h0' : acc 0 = m 0 := h0.trans (hm 0 (by omega)).symm
  have hs' : ∀ n, n + 1 < 512 → acc (n + 1) = min (acc n) (m (n + 1)) := fun n h => by
    rw [hs n h, hm (n + 1) h]
  rw [running_min 512 m acc h0' hs' 511 (by omega), inf_range_eq_univ 512 m, least_blocks blockEquiv x]
  exact Finset.inf_congr rfl fun t _ => hm t.val t.isLt

/-- The same walk with maxima ends at the greatest entry of the whole array. -/
theorem greatest_of_blocks (x : (⟨2, ![8388608, 5]⟩ : Shape).Idx → EReal) (acc : ℕ → EReal)
    (h0 : acc 0 = Cert.Spec.greatest (fun y => x (blockEquiv ((0 : Fin 512), y))))
    (hs : ∀ n (h : n + 1 < 512), acc (n + 1)
        = max (acc n) (Cert.Spec.greatest (fun y => x (blockEquiv ((⟨n + 1, h⟩ : Fin 512), y))))) :
    acc 511 = Cert.Spec.greatest x := by
  let m : ℕ → EReal := fun n =>
    if h : n < 512 then Cert.Spec.greatest (fun y => x (blockEquiv ((⟨n, h⟩ : Fin 512), y))) else ⊥
  have hm : ∀ n (h : n < 512), m n = Cert.Spec.greatest (fun y => x (blockEquiv ((⟨n, h⟩ : Fin 512), y))) :=
    fun n h => by simp only [m, dif_pos h]
  have h0' : acc 0 = m 0 := h0.trans (hm 0 (by omega)).symm
  have hs' : ∀ n, n + 1 < 512 → acc (n + 1) = max (acc n) (m (n + 1)) := fun n h => by
    rw [hs n h, hm (n + 1) h]
  rw [running_max 512 m acc h0' hs' 511 (by omega), sup_range_eq_univ 512 m, greatest_blocks blockEquiv x]
  exact Finset.sup_congr rfl fun t _ => hm t.val t.isLt

section Payloads

open Cert.KernelIdeal Cert.KernelIdeal.Gen

/-! ## The block payloads: one block's least and greatest entry -/

/-- The f32 word of `+∞` is the top of the extended reals, and that of `-∞` the bottom. -/
theorem ofBits_posInf : Ideal.ofBits .f32 0x7F800000#32 = (⊤ : EReal) := by simp [Ideal.ofBits, Ideal.ieee]
theorem ofBits_negInf : Ideal.ofBits .f32 0xFF800000#32 = (⊥ : EReal) := by simp [Ideal.ofBits, Ideal.ieee]

/-- A minimum reduction, started at `+∞`, into a shape with one entry: every source index drops to that entry, so
    the result is the least entry of the source. -/
theorem multiReduction_minimumf_total {s t : Shape} {axes : List (Fin s.rank)} (src : FVec Ideal s .f32)
    (h : s.Reduces axes t) (ht : ∀ b, t.size b = 1) (hφ : FKind.Formats .f32)
    (hacc : (0x7F800000#32 : BitVec 32) = FKind.minimumf.neutral .f32 hφ) (j : t.Idx) :
    multiReduction (F := Ideal) .minimumf axes t src 0x7F800000#32 h hφ hacc j = Finset.univ.inf (src : s.Idx → EReal) := by
  rw [multiReduction_minimumf_eq_fold]
  rw [Finset.filter_true_of_mem fun i _ => funext fun b => Fin.ext (by
    have := (h.drop i b).isLt; have := (j b).isLt; have := ht b; omega)]
  show Finset.univ.fold min (Ideal.ofBits .f32 0x7F800000#32) src = _
  rw [ofBits_posInf]
  rfl

/-- A maximum reduction, started at `-∞`, into a shape with one entry is the greatest entry of the source. -/
theorem multiReduction_maximumf_total {s t : Shape} {axes : List (Fin s.rank)} (src : FVec Ideal s .f32)
    (h : s.Reduces axes t) (ht : ∀ b, t.size b = 1) (hφ : FKind.Formats .f32)
    (hacc : (0xFF800000#32 : BitVec 32) = FKind.maximumf.neutral .f32 hφ) (j : t.Idx) :
    multiReduction (F := Ideal) .maximumf axes t src 0xFF800000#32 h hφ hacc j = Finset.univ.sup (src : s.Idx → EReal) := by
  rw [multiReduction_maximumf_eq_fold]
  rw [Finset.filter_true_of_mem fun i _ => funext fun b => Fin.ext (by
    have := (h.drop i b).isLt; have := (j b).isLt; have := ht b; omega)]
  show Finset.univ.fold max (Ideal.ofBits .f32 0xFF800000#32) src = _
  rw [ofBits_negInf]
  rfl

/-- A shape cast lists the same entries under other indices, so its least entry is the operand's. -/
theorem inf_shapeCast {s t : Shape} (x : s.Idx → EReal) (h : s.ShapeCasts t) :
    Finset.univ.inf (shapeCast t x h) = Finset.univ.inf x := by
  simp only [Finset.inf_univ_eq_iInf]
  exact (Shape.reshapeEquiv h).iInf_comp (g := x)

/-- … and its greatest entry is the operand's. -/
theorem sup_shapeCast {s t : Shape} (x : s.Idx → EReal) (h : s.ShapeCasts t) :
    Finset.univ.sup (shapeCast t x h) = Finset.univ.sup x := by
  simp only [Finset.sup_univ_eq_iSup]
  exact (Shape.reshapeEquiv h).iSup_comp (g := x)

/-- Reading one position of a shape cast is reading the operand at the matching position. -/
theorem extractAt_shapeCast {s t : Shape} {α : Type} (x : s.Idx → α) (h : s.ShapeCasts t) (pos : Fin t.rank → Nat)
    (hp : ∀ a, pos a < t.size a) :
    extractAt pos (shapeCast t x h) hp = x (Shape.reshapeEquiv h (fun a => ⟨pos a, hp a⟩)) := rfl

/-- The first block's stored minimum is the block's least entry. -/
theorem k0_pay1_apply (v : Vec Ideal S16384x5 .f32) (j : S1x1.Idx) :
    k0_pay1 (F := Ideal) v j = Cert.Spec.least (v : S16384x5.Idx → EReal) := by
  unfold k0_pay1
  refine (broadcast_apply _ j).trans ?_
  refine (extractAt_shapeCast _ _ _ _).trans ?_
  refine (multiReduction_minimumf_total (shapeCast S1x16384x5 v shapeCasts_S16384x5_S1x16384x5)
    reduces_S1x16384x5_S1 (fun b => by match b with | ⟨0, _⟩ => rfl) _ _ _).trans ?_
  exact inf_shapeCast (v : S16384x5.Idx → EReal) shapeCasts_S16384x5_S1x16384x5

/-- The first block's stored maximum is the block's greatest entry. -/
theorem k0_pay2_apply (v : Vec Ideal S16384x5 .f32) (j : S1x1.Idx) :
    k0_pay2 (F := Ideal) v j = Cert.Spec.greatest (v : S16384x5.Idx → EReal) := by
  unfold k0_pay2
  refine (broadcast_apply _ j).trans ?_
  refine (extractAt_shapeCast _ _ _ _).trans ?_
  refine (multiReduction_maximumf_total (shapeCast S1x16384x5 v shapeCasts_S16384x5_S1x16384x5)
    reduces_S1x16384x5_S1 (fun b => by match b with | ⟨0, _⟩ => rfl) _ _ _).trans ?_
  exact sup_shapeCast (v : S16384x5.Idx → EReal) shapeCasts_S16384x5_S1x16384x5

/-- A later block's stored minimum is the minimum of the value before it and the block's least entry. -/
theorem k0_pay3_apply (v : Vec Ideal S16384x5 .f32) (prev : Vec Ideal S1x1 .f32) (j : S1x1.Idx) :
    k0_pay3 (F := Ideal) v prev j = min (prev j : EReal) (Cert.Spec.least (v : S16384x5.Idx → EReal)) := by
  unfold k0_pay3
  show min (shapeCast S1x1 prev shapeCasts_S1x1_S1x1 j : EReal) (k0_pay1 (F := Ideal) v j) = _
  rw [shapeCast_self, k0_pay1_apply]

/-- A later block's stored maximum is the maximum of the value before it and the block's greatest entry. -/
theorem k0_pay4_apply (v : Vec Ideal S16384x5 .f32) (prev : Vec Ideal S1x1 .f32) (j : S1x1.Idx) :
    k0_pay4 (F := Ideal) v prev j = max (prev j : EReal) (Cert.Spec.greatest (v : S16384x5.Idx → EReal)) := by
  unfold k0_pay4
  show max (shapeCast S1x1 prev shapeCasts_S1x1_S1x1 j : EReal) (k0_pay2 (F := Ideal) v j) = _
  rw [shapeCast_self, k0_pay2_apply]

end Payloads

end Cert.MinMaxFold

end
-- ==== Proof.KI.Value0.lean ====
/-
  What the first pallas_call leaves in its two 1×1 results, over the extended reals: the least and the greatest
  entry of the activations.

  Its grid walks the 512 row blocks of the activations (block `t` = rows `16384·t … 16384·t+16383`) and keeps a
  running minimum and maximum in the two output buffers, which are written back once, at the last point. So each
  result holds the running value after point 511, and a running minimum of the blocks' least entries over all
  blocks is the least entry of the whole array.
-/
import proofs.«118362_j48954037240021_1_alg».proof.Proof.KI.Body0
import proofs.«118362_j48954037240021_1_alg».proof.Proof.MinMaxFold
import proofs.«118362_j48954037240021_1_alg».proof.Proof.Spec
import Idealize.ShloMosaic.Lib.Pipeline.Value
import Idealize.ShloMosaic.Lib.ValueIdx

set_option maxRecDepth 16384

noncomputable section

namespace Cert.KernelIdeal.Val0

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

open Cert.KernelIdeal.Body0 (aft0 hbody0)

theorem pt_lt (t : Fin cfg0.N) : t.val < 512 := lt_of_lt_of_eq t.isLt (show cfg0.N = 512 from N_0)
theorem last_lt : 511 < cfg0.N := by rw [show cfg0.N = 512 from N_0]; omega

/-- The printed index maps over the grid: the activations' block index is the point; the two results stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

variable (V : Run.Entry F)

/-- The minimum's array after the call: the running minimum after the last point. -/
theorem final_min (c : Dev nD) : (Run.dat0 V c (aft0 V c)).arrAt 1 cfg0.N = Fr0.accMin V c 511 last_lt := by
  refine (Run.dat0 V c (aft0 V c)).arrAt_eq_of_cover 1 (Fr0.accMin V c 511 last_lt) (fun t hf => ?_) (fun i => ?_)
  · have h511 : t.val = 511 := by have := (flush0_1 t).mp hf; have := pt_lt t; omega
    obtain ⟨-, -, e10, e11, -⟩ := idx_facts t
    show (cfg0.win 1).cut (grid0.coords t) ((Fr0.dat0 V c).after 1 t) = _
    rw [Fr0.after0_1]
    obtain ⟨n, hn⟩ := t
    obtain rfl : n = 511 := h511
    funext j
    have hj0 : (j 0).val < 1 := (j 0).isLt
    have hj1 : (j 1).val < 1 := (j 1).isLt
    show Fr0.accMin V c 511 _ ((win0 1).xinj (grid0.coords ⟨511, hn⟩) j) = Fr0.accMin V c 511 _ (((cfg0.win 1).blk ⟨511, hn⟩).view.emb j)
    refine congrArg (Fr0.accMin V c 511 _) (funext fun a => Fin.ext ?_)
    match a with
    | ⟨0, _⟩ => show (j 0).val = win0_1.index ⟨511, hn⟩ (0 : Fin 2) * 1 + 1 * (j 0).val; omega
    | ⟨1, _⟩ => show (j 1).val = win0_1.index ⟨511, hn⟩ (1 : Fin 2) * 1 + 1 * (j 1).val; omega
  · have hi0 : (i 0).val < 1 := (i 0).isLt
    have hi1 : (i 1).val < 1 := (i 1).isLt
    let t : Fin cfg0.N := ⟨511, last_lt⟩
    obtain ⟨-, -, e10, e11, -⟩ := idx_facts t
    refine ⟨t, (flush0_1 t).mpr rfl, ?_⟩
    show i ∈ ((View.whole main_v0_0).slice (win0_1.rect t)).set
    rw [View.set_slice_whole, Rect.mem_set_unit]
    intro a
    match a with
    | ⟨0, _⟩ => show win0_1.index t (0 : Fin 2) * 1 ≤ (i 0).val ∧ (i 0).val < win0_1.index t (0 : Fin 2) * 1 + 1; omega
    | ⟨1, _⟩ => show win0_1.index t (1 : Fin 2) * 1 ≤ (i 1).val ∧ (i 1).val < win0_1.index t (1 : Fin 2) * 1 + 1; omega

/-- The maximum's array after the call: the running maximum after the last point. -/
theorem final_max (c : Dev nD) : (Run.dat0 V c (aft0 V c)).arrAt 2 cfg0.N = Fr0.accMax V c 511 last_lt := by
  refine (Run.dat0 V c (aft0 V c)).arrAt_eq_of_cover 2 (Fr0.accMax V c 511 last_lt) (fun t hf => ?_) (fun i => ?_)
  · have h511 : t.val = 511 := by have := (flush0_2 t).mp hf; have := pt_lt t; omega
    obtain ⟨-, -, -, -, e20, e21⟩ := idx_facts t
    show (cfg0.win 2).cut (grid0.coords t) ((Fr0.dat0 V c).after 2 t) = _
    rw [Fr0.after0_2]
    obtain ⟨n, hn⟩ := t
    obtain rfl : n = 511 := h511
    funext j
    have hj0 : (j 0).val < 1 := (j 0).isLt
    have hj1 : (j 1).val < 1 := (j 1).isLt
    show Fr0.accMax V c 511 _ ((win0 2).xinj (grid0.coords ⟨511, hn⟩) j) = Fr0.accMax V c 511 _ (((cfg0.win 2).blk ⟨511, hn⟩).view.emb j)
    refine congrArg (Fr0.accMax V c 511 _) (funext fun a => Fin.ext ?_)
    match a with
    | ⟨0, _⟩ => show (j 0).val = win0_2.index ⟨511, hn⟩ (0 : Fin 2) * 1 + 1 * (j 0).val; omega
    | ⟨1, _⟩ => show (j 1).val = win0_2.index ⟨511, hn⟩ (1 : Fin 2) * 1 + 1 * (j 1).val; omega
  · have hi0 : (i 0).val < 1 := (i 0).isLt
    have hi1 : (i 1).val < 1 := (i 1).isLt
    let t : Fin cfg0.N := ⟨511, last_lt⟩
    obtain ⟨-, -, -, -, e20, e21⟩ := idx_facts t
    refine ⟨t, (flush0_2 t).mpr rfl, ?_⟩
    show i ∈ ((View.whole main_v0_1).slice (win0_2.rect t)).set
    rw [View.set_slice_whole, Rect.mem_set_unit]
    intro a
    match a with
    | ⟨0, _⟩ => show win0_2.index t (0 : Fin 2) * 1 ≤ (i 0).val ∧ (i 0).val < win0_2.index t (0 : Fin 2) * 1 + 1; omega
    | ⟨1, _⟩ => show win0_2.index t (1 : Fin 2) * 1 ≤ (i 1).val ∧ (i 1).val < win0_2.index t (1 : Fin 2) * 1 + 1; omega

/-! ## The running values are the extreme entries -/

section AtIdeal

variable (U : Run.Entry Ideal)

/-- Entry `y` of block `t` of the activations is entry `(16384·t + y₀, y₁)` of the activations. -/
theorem read_blk (c : Dev nD) (t : Fin cfg0.N) (y : S16384x5.Idx) :
    Fr0.iblk0 U c 0 t y = U c main_arg0 (Cert.MinMaxFold.blockEquiv ((⟨t.val, pt_lt t⟩ : Fin 512), y)) := by
  obtain ⟨e00, e01, -⟩ := idx_facts t
  have ht := pt_lt t
  have hy0 : (y 0).val < 16384 := (y 0).isLt
  show U c main_arg0 (((cfg0.win 0).blk t).view.emb y) = _
  refine congrArg (U c main_arg0) ?_
  rw [Cert.MinMaxFold.blockEquiv_apply]
  funext a
  apply Fin.ext
  match a with
  | ⟨0, _⟩ => show win0_0.index t (0 : Fin 2) * 16384 + 1 * (y 0).val = 16384 * t.val + (y 0).val; omega
  | ⟨1, _⟩ => show win0_0.index t (1 : Fin 2) * 5 + 1 * (y 1).val = (y 1).val; omega

/-- The running minimum after the last point is the least entry of the activations. -/
theorem min_value (c : Dev nD) :
    Fr0.accMin U c 511 last_lt (ix2 0 0) = Cert.Spec.least (U c main_arg0 : S8388608x5.Idx → EReal) := by
  have hN : cfg0.N = 512 := N_0
  let acc : ℕ → EReal := fun n => if h : n < cfg0.N then Fr0.accMin U c n h (ix2 0 0) else 0
  have h511 : acc 511 = Fr0.accMin U c 511 last_lt (ix2 0 0) := dif_pos last_lt
  rw [← h511]
  refine Cert.MinMaxFold.least_of_blocks _ acc ?_ ?_
  · have h0 : 0 < cfg0.N := by omega
    show (if h : 0 < cfg0.N then Fr0.accMin U c 0 h (ix2 0 0) else 0) = _
    rw [dif_pos h0]
    show k0_pay1 (F := Ideal) (Fr0.iblk0 U c 0 ⟨0, h0⟩) (ix2 0 0) = _
    rw [Cert.MinMaxFold.k0_pay1_apply]
    exact congrArg Cert.Spec.least (funext fun y => read_blk U c ⟨0, h0⟩ y)
  · intro n h
    have h1 : n + 1 < cfg0.N := by omega
    have h2 : n < cfg0.N := by omega
    show (if h : n + 1 < cfg0.N then Fr0.accMin U c (n + 1) h (ix2 0 0) else 0)
        = min (if h : n < cfg0.N then Fr0.accMin U c n h (ix2 0 0) else 0) _
    rw [dif_pos h1, dif_pos h2]
    show k0_pay3 (F := Ideal) (Fr0.iblk0 U c 0 ⟨n + 1, h1⟩) (Fr0.accMin U c n _) (ix2 0 0) = _
    rw [Cert.MinMaxFold.k0_pay3_apply]
    exact congrArg (min _) (congrArg Cert.Spec.least (funext fun y => read_blk U c ⟨n + 1, h1⟩ y))

/-- The running maximum after the last point is the greatest entry of the activations. -/
theorem max_value (c : Dev nD) :
    Fr0.accMax U c 511 last_lt (ix2 0 0) = Cert.Spec.greatest (U c main_arg0 : S8388608x5.Idx → EReal) := by
  have hN : cfg0.N = 512 := N_0
  let acc : ℕ → EReal := fun n => if h : n < cfg0.N then Fr0.accMax U c n h (ix2 0 0) else 0
  have h511 : acc 511 = Fr0.accMax U c 511 last_lt (ix2 0 0) := dif_pos last_lt
  rw [← h511]
  refine Cert.MinMaxFold.greatest_of_blocks _ acc ?_ ?_
  · have h0 : 0 < cfg0.N := by omega
    show (if h : 0 < cfg0.N then Fr0.accMax U c 0 h (ix2 0 0) else 0) = _
    rw [dif_pos h0]
    show k0_pay2 (F := Ideal) (Fr0.iblk0 U c 0 ⟨0, h0⟩) (ix2 0 0) = _
    rw [Cert.MinMaxFold.k0_pay2_apply]
    exact congrArg Cert.Spec.greatest (funext fun y => read_blk U c ⟨0, h0⟩ y)
  · intro n h
    have h1 : n + 1 < cfg0.N := by omega
    have h2 : n < cfg0.N := by omega
    show (if h : n + 1 < cfg0.N then Fr0.accMax U c (n + 1) h (ix2 0 0) else 0)
        = max (if h : n < cfg0.N then Fr0.accMax U c n h (ix2 0 0) else 0) _
    rw [dif_pos h1, dif_pos h2]
    show k0_pay4 (F := Ideal) (Fr0.iblk0 U c 0 ⟨n + 1, h1⟩) (Fr0.accMax U c n _) (ix2 0 0) = _
    rw [Cert.MinMaxFold.k0_pay4_apply]
    exact congrArg (max _) (congrArg Cert.Spec.greatest (funext fun y => read_blk U c ⟨n + 1, h1⟩ y))

end AtIdeal

end Cert.KernelIdeal.Val0

end
-- ==== Proof.KI.Value1.lean ====
/-
  What the second pallas_call leaves in the result array, over the extended reals.

  Point `t` of its grid writes back rows `8192·t … 8192·t+8191` of the result; the 1024 points tile the array.
  The block a point writes is the body's payload of the point's input blocks — rows `8192·t …` of the
  activations, and the four small operands whole — so row `r`, column `o` of the result is the payload's formula
  read at row `r` of the activations: the sum over the five features of the quantized activation times the
  quantized weight, plus the bias.
-/
import proofs.«118362_j48954037240021_1_alg».proof.Proof.KI.Run
import proofs.«118362_j48954037240021_1_alg».proof.Proof.Spec
import Idealize.ShloMosaic.Lib.Pipeline.Value
import Idealize.ShloMosaic.Lib.ValueIdx

set_option maxRecDepth 16384

noncomputable section

namespace Cert.KernelIdeal.Val1

open Cert.KernelIdeal Cert.KernelIdeal.Gen
open Idealize.ShloMosaic Idealize.ShloMosaic.TcCoe Idealize.ShloMosaic.ValueIdx Idealize.SL.Sem
open Idealize.ShloMosaic.Pipeline (Dat)

variable (V : Run.Entry Ideal)

theorem origin : (![0, 0] : Fin 2 → Nat) = fun _ => 0 := funext fun a => by fin_cases a <;> rfl

/-- The body's arithmetic read at row `p`, column `o` of its block (a hypothesis of this section). -/
abbrev PayLaw : Prop := ∀ (v0 v3 : Vec Ideal S1x1 .f32) (v6 : Vec Ideal S8192x5 .f32) (v20 : Vec Ideal S10x5 .f32) (v23 : Vec Ideal S1x10 .f32)
    (p : Fin 8192) (o : Fin 10),
    k1_pay1 (F := Ideal) v0 v3 v6 v20 v23 (ix2 p o)
      = (∑ k : Fin 5, Cert.Spec.fq (v0 (ix2 0 0)) (v3 (ix2 0 0)) (v6 (ix2 p k)) * v20 (ix2 o k)) + v23 (ix2 0 o)

/-- The result array as one function of the buffers the call finds. -/
def G5 (c : Dev nD) : S8388608x10.Idx → EReal := fun i =>
  (∑ k : Fin 5, Cert.Spec.fq (V c main_v27 (ix2 0 0)) (V c main_v28 (ix2 0 0)) (V c main_arg0 (ix2 (i 0) k)) * V c main_v26 (ix2 (i 1) k))
    + V c main_v29 (ix2 0 (i 1))

/-- The printed index maps over the grid: the activations' and the result's block index is the point, the four small
    operands stay at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A point is below 1024. -/
theorem pt_lt (t : Fin cfg1.N) : t.val < 1024 := lt_of_lt_of_eq t.isLt (show cfg1.N = 1024 from N_1)

/-! ## The blocks the body reads, as entries of the arrays -/

/-- Row `p` of the activations' block at point `t` is row `8192·t + p` of the activations. -/
theorem read_x (c : Dev nD) (t : Fin cfg1.N) (p : Fin 8192) (k : Fin 5) :
    Fr1.blk1 V c 0 t (ix2 p k) = V c main_arg0 (ix2 (⟨8192 * t.val + p.val, by have := pt_lt t; omega⟩ : Fin 8388608) k) := by
  obtain ⟨e00, e01, -⟩ := idx_facts t
  show V c main_arg0 (((cfg1.win 0).blk t).view.emb (ix2 p k)) = _
  refine congrArg (V c main_arg0) (funext fun a => Fin.ext ?_)
  match a with
  | ⟨0, _⟩ => show win1_0.index t (0 : Fin 2) * 8192 + 1 * p.val = 8192 * t.val + p.val; omega
  | ⟨1, _⟩ => show win1_0.index t (1 : Fin 2) * 5 + 1 * k.val = k.val; omega

/-- The step's block is the step's array. -/
theorem read_s (c : Dev nD) (t : Fin cfg1.N) (a b : Fin 1) : Fr1.blk1 V c 1 t (ix2 a b) = V c main_v27 (ix2 a b) := by
  obtain ⟨-, -, e10, e11, -⟩ := idx_facts t
  show V c main_v27 (((cfg1.win 1).blk t).view.emb (ix2 a b)) = _
  refine congrArg (V c main_v27) (funext fun d => Fin.ext ?_)
  match d with
  | ⟨0, _⟩ => show win1_1.index t (0 : Fin 2) * 1 + 1 * a.val = a.val; omega
  | ⟨1, _⟩ => show win1_1.index t (1 : Fin 2) * 1 + 1 * b.val = b.val; omega

/-- The zero point's block is the zero point's array. -/
theorem read_z (c : Dev nD) (t : Fin cfg1.N) (a b : Fin 1) : Fr1.blk1 V c 2 t (ix2 a b) = V c main_v28 (ix2 a b) := by
  obtain ⟨-, -, -, -, e20, e21, -⟩ := idx_facts t
  show V c main_v28 (((cfg1.win 2).blk t).view.emb (ix2 a b)) = _
  refine congrArg (V c main_v28) (funext fun d => Fin.ext ?_)
  match d with
  | ⟨0, _⟩ => show win1_2.index t (0 : Fin 2) * 1 + 1 * a.val = a.val; omega
  | ⟨1, _⟩ => show win1_2.index t (1 : Fin 2) * 1 + 1 * b.val = b.val; omega

/-- The weights' block is the weights' array. -/
theorem read_w (c : Dev nD) (t : Fin cfg1.N) (o : Fin 10) (k : Fin 5) : Fr1.blk1 V c 3 t (ix2 o k) = V c main_v26 (ix2 o k) := by
  obtain ⟨-, -, -, -, -, -, e30, e31, -⟩ := idx_facts t
  show V c main_v26 (((cfg1.win 3).blk t).view.emb (ix2 o k)) = _
  refine congrArg (V c main_v26) (funext fun d => Fin.ext ?_)
  match d with
  | ⟨0, _⟩ => show win1_3.index t (0 : Fin 2) * 10 + 1 * o.val = o.val; omega
  | ⟨1, _⟩ => show win1_3.index t (1 : Fin 2) * 5 + 1 * k.val = k.val; omega

/-- The bias row's block is the bias row. -/
theorem read_b (c : Dev nD) (t : Fin cfg1.N) (a : Fin 1) (o : Fin 10) : Fr1.blk1 V c 4 t (ix2 a o) = V c main_v29 (ix2 a o) := by
  obtain ⟨-, -, -, -, -, -, -, -, e40, e41, -⟩ := idx_facts t
  show V c main_v29 (((cfg1.win 4).blk t).view.emb (ix2 a o)) = _
  refine congrArg (V c main_v29) (funext fun d => Fin.ext ?_)
  match d with
  | ⟨0, _⟩ => show win1_4.index t (0 : Fin 2) * 1 + 1 * a.val = a.val; omega
  | ⟨1, _⟩ => show win1_4.index t (1 : Fin 2) * 10 + 1 * o.val = o.val; omega

/-! ## What a point writes back, and the whole array -/

/-- What point `t` writes back is block `t` of `G5`. -/
theorem flushed5_eq (hpay : PayLaw) (c : Dev nD) (t : Fin cfg1.N) :
    (Fr1.dat1 V c).flushed 5 t = ((cfg1.win 5).blk t).view.read (Elt Ideal) (G5 V c) := by
  show (cfg1.win 5).cut (grid1.coords t) ((Fr1.dat1 V c).after 5 t) = _
  rw [Fr1.after1_5]
  unfold Fr1.outBuf
  rw [View.canon_unit_zero origin]
  simp only [View.ld_unit_zero (S := S8192x5) origin, View.ld_unit_zero (S := S1x1) origin, View.ld_unit_zero (S := S10x5) origin,
    View.ld_unit_zero (S := S1x10) origin]
  obtain ⟨-, -, -, -, -, -, -, -, -, -, e50, e51⟩ := idx_facts t
  have ht := pt_lt t
  funext j
  have hj0 : (j 0).val < 8192 := (j 0).isLt
  have hj1 : (j 1).val < 10 := (j 1).isLt
  have hx : (win1 5).xinj (grid1.coords t) j = ix2 (⟨(j 0).val, hj0⟩ : Fin 8192) (⟨(j 1).val, hj1⟩ : Fin 10) :=
    funext fun a => by match a with | ⟨0, _⟩ => rfl | ⟨1, _⟩ => rfl
  have he : ((cfg1.win 5).blk t).view.emb j
      = ix2 (⟨8192 * t.val + (j 0).val, by omega⟩ : Fin 8388608) (⟨(j 1).val, hj1⟩ : Fin 10) :=
    funext fun a => Fin.ext (by
      match a with
      | ⟨0, _⟩ => show win1_5.index t (0 : Fin 2) * 8192 + 1 * (j 0).val = 8192 * t.val + (j 0).val; omega
      | ⟨1, _⟩ => show win1_5.index t (1 : Fin 2) * 10 + 1 * (j 1).val = (j 1).val; omega)
  show k1_pay1 (F := Ideal) (Fr1.blk1 V c 1 t) (Fr1.blk1 V c 2 t) (Fr1.blk1 V c 0 t) (Fr1.blk1 V c 3 t) (Fr1.blk1 V c 4 t)
      ((win1 5).xinj (grid1.coords t) j) = G5 V c (((cfg1.win 5).blk t).view.emb j)
  rw [hx, he, hpay]
  unfold G5
  simp only [read_x, read_s, read_z, read_w, read_b]

/-- An index of the result is in point `t`'s block iff its row is among the point's 8192 rows. -/
theorem mem_blk5 (t : Fin cfg1.N) (i : S8388608x10.Idx) :
    i ∈ ((cfg1.win 5).blk t).view.set ↔ ∀ a : Fin 2, win1_5.index t a * S8192x10.size a ≤ (i a).val ∧ (i a).val < win1_5.index t a * S8192x10.size a + S8192x10.size a := by
  show i ∈ ((View.whole main_v30).slice (win1_5.rect t)).set ↔ _
  rw [View.set_slice_whole, Rect.mem_set_unit]
  exact Iff.rfl

/-- Every index of the result is in some point's block: row `r` is written by point `r / 8192`. -/
theorem cover5 (i : S8388608x10.Idx) : ∃ t : Fin cfg1.N, (cfg1.win 5).flush t = true ∧ i ∈ ((cfg1.win 5).blk t).view.set := by
  have hi0 : (i 0).val < 8388608 := (i 0).isLt
  have hi1 : (i 1).val < 10 := (i 1).isLt
  have hN : cfg1.N = 1024 := N_1
  let t : Fin cfg1.N := ⟨(i 0).val / 8192, by omega⟩
  obtain ⟨-, -, -, -, -, -, -, -, -, -, e50, e51⟩ := idx_facts t
  have htv : t.val = (i 0).val / 8192 := rfl
  refine ⟨t, flush1_5 t, ?_⟩
  rw [mem_blk5]
  intro a
  match a with
  | ⟨0, _⟩ => show win1_5.index t (0 : Fin 2) * 8192 ≤ (i 0).val ∧ (i 0).val < win1_5.index t (0 : Fin 2) * 8192 + 8192; omega
  | ⟨1, _⟩ => show win1_5.index t (1 : Fin 2) * 10 ≤ (i 1).val ∧ (i 1).val < win1_5.index t (1 : Fin 2) * 10 + 10; omega

/-- The result array after the call: `G5` of the buffers the call found. -/
theorem final5 (hpay : PayLaw) (c : Dev nD) : (Fr1.dat1 V c).arrAt 5 cfg1.N = G5 V c :=
  (Fr1.dat1 V c).arrAt_eq_of_cover 5 (G5 V c) (fun t _ => flushed5_eq V hpay c t) cover5

end Cert.KernelIdeal.Val1

end
-- ==== Proof.RefSpec.lean ====
/-
  The reference program computes the quantized linear layer of the specification.

  Its four reductions to a scalar are the least and the greatest entry of the activations and of the
  weights: a fold of `min` from `+∞` (of `max` from `-∞`) over every index, in any order, which is the
  infimum (the supremum) over the whole index set. From those the step and the zero point are the
  specification's by unfolding, each quantized entry is `fq` of the entry, the contraction over the five
  features is the sum, and the bias row is added at the output's column.
-/
import proofs.«118362_j48954037240021_1_alg».proof.Proof.Gen.ReferenceIdeal.Read
import proofs.«118362_j48954037240021_1_alg».proof.Proof.Spec
import Idealize.ShloMosaic.PureOps.Reduce
import Idealize.ShloMosaic.PureOps.Ideal.Laws

noncomputable section

namespace Cert.RefSpec

open Cert.ReferenceIdeal Cert.ReferenceIdeal.Gen Cert.ReferenceIdeal.Read Idealize.ShloMosaic Idealize.ShloMosaic.ValueIdx

/-- The word of `+∞`. -/
theorem posInf : Ideal.ofBits .f32 0x7F800000#32 = (⊤ : EReal) := by simp [Ideal.ofBits, Ideal.ieee]
/-- The word of `-∞`. -/
theorem negInf : Ideal.ofBits .f32 0xFF800000#32 = (⊥ : EReal) := by simp [Ideal.ofBits, Ideal.ieee]

/-- A minimum over every axis, started at `+∞`, is the infimum over all indices: into the rank-zero shape
    every index reduces to the one result index, and `Finset.inf` is the fold of `⊓` from `⊤`. -/
theorem reduce_min_total {s : Shape} {axes : List (Fin s.rank)} (x : s.Idx → EReal) (init : S_.Idx → EReal)
    (h : s.ReducesTo axes S_) (hu : 0 < S_.numel) (hinit : ∀ i, init i = ⊤) (j : S_.Idx) :
    Host.reduce (FloatOps.minimumf (F := Ideal) (φ := .f32)) x init h hu j = Cert.Spec.least x := by
  rw [Host.reduce_eq_fold]
  have hf : (Finset.univ.filter fun i => h.drop i = j) = Finset.univ :=
    Finset.filter_true_of_mem fun i _ => funext fun a => a.elim0
  rw [hf, hinit]
  rfl

/-- A maximum over every axis, started at `-∞`, is the supremum over all indices. -/
theorem reduce_max_total {s : Shape} {axes : List (Fin s.rank)} (x : s.Idx → EReal) (init : S_.Idx → EReal)
    (h : s.ReducesTo axes S_) (hu : 0 < S_.numel) (hinit : ∀ i, init i = ⊥) (j : S_.Idx) :
    Host.reduce (FloatOps.maximumf (F := Ideal) (φ := .f32)) x init h hu j = Cert.Spec.greatest x := by
  rw [Host.reduce_eq_fold]
  have hf : (Finset.univ.filter fun i => h.drop i = j) = Finset.univ :=
    Finset.filter_true_of_mem fun i _ => funext fun a => a.elim0
  rw [hf, hinit]
  rfl

/-! ### The four ranges -/

theorem v0_eq (x : (⟨S8388608x5, .f32⟩ : BufTy).Contents (Elt Ideal)) (j : S_.Idx) :
    val_main_v0 (F := Ideal) x j = Cert.Spec.least x :=
  reduce_min_total x _ _ _ (fun _ => posInf) j

theorem v1_eq (x : (⟨S8388608x5, .f32⟩ : BufTy).Contents (Elt Ideal)) (j : S_.Idx) :
    val_main_v1 (F := Ideal) x j = Cert.Spec.greatest x :=
  reduce_max_total x _ _ _ (fun _ => negInf) j

theorem v18_eq (W : (⟨S10x5, .f32⟩ : BufTy).Contents (Elt Ideal)) (j : S_.Idx) :
    val_main_v18 (F := Ideal) W j = Cert.Spec.least W :=
  reduce_min_total W _ _ _ (fun _ => posInf) j

theorem v19_eq (W : (⟨S10x5, .f32⟩ : BufTy).Contents (Elt Ideal)) (j : S_.Idx) :
    val_main_v19 (F := Ideal) W j = Cert.Spec.greatest W :=
  reduce_max_total W _ _ _ (fun _ => negInf) j

/-! ### Steps and zero points -/

/-- The activations' step. -/
theorem v4_eq (x : (⟨S8388608x5, .f32⟩ : BufTy).Contents (Elt Ideal)) (j : S_.Idx) :
    val_main_v4 (F := Ideal) x j = Cert.Spec.step (Cert.Spec.least x) (Cert.Spec.greatest x) := by
  rw [val_main_v4_apply, val_main_v3_apply, val_main_v2_apply, val_main_cst_1_apply, val_main_cst_2_apply,
    v0_eq, v1_eq]
  rfl

/-- The activations' zero point. -/
theorem v7_eq (x : (⟨S8388608x5, .f32⟩ : BufTy).Contents (Elt Ideal)) (j : S_.Idx) :
    val_main_v7 (F := Ideal) x j
      = Cert.Spec.zeroPoint (Cert.Spec.least x) (Cert.Spec.step (Cert.Spec.least x) (Cert.Spec.greatest x)) := by
  rw [val_main_v7_apply, val_main_v6_apply, val_main_v5_apply, v4_eq, v0_eq]
  rfl

/-- The weights' step. -/
theorem v22_eq (W : (⟨S10x5, .f32⟩ : BufTy).Contents (Elt Ideal)) (j : S_.Idx) :
    val_main_v22 (F := Ideal) W j = Cert.Spec.step (Cert.Spec.least W) (Cert.Spec.greatest W) := by
  rw [val_main_v22_apply, val_main_v21_apply, val_main_v20_apply, val_main_cst_7_apply, val_main_cst_8_apply,
    v18_eq, v19_eq]
  rfl

/-- The weights' zero point. -/
theorem v25_eq (W : (⟨S10x5, .f32⟩ : BufTy).Contents (Elt Ideal)) (j : S_.Idx) :
    val_main_v25 (F := Ideal) W j
      = Cert.Spec.zeroPoint (Cert.Spec.least W) (Cert.Spec.step (Cert.Spec.least W) (Cert.Spec.greatest W)) := by
  rw [val_main_v25_apply, val_main_v24_apply, val_main_v23_apply, v22_eq, v18_eq]
  rfl

/-! ### The quantized entries -/

/-- A quantized activation: clamping as `min 15 (max 0 ·)`, in the specification's order. -/
theorem v17_eq (x : (⟨S8388608x5, .f32⟩ : BufTy).Contents (Elt Ideal)) (j : S8388608x5.Idx) :
    val_main_v17 (F := Ideal) x j
      = Cert.Spec.fq (Cert.Spec.step (Cert.Spec.least x) (Cert.Spec.greatest x))
          (Cert.Spec.zeroPoint (Cert.Spec.least x) (Cert.Spec.step (Cert.Spec.least x) (Cert.Spec.greatest x))) (x j) := by
  rw [val_main_v17_apply, val_main_v15_apply, val_main_v13_apply, val_main_call2_v4_apply, val_main_call2_v3_apply,
    val_main_cst_4_apply, val_main_call2_v2_apply, val_main_call2_v1_apply, val_main_call2_v0_apply,
    val_main_cst_3_apply, val_main_v12_apply, val_main_v10_apply, val_main_v9_apply, val_main_v8_apply,
    val_main_v11_apply, val_main_v14_apply, val_main_v16_apply]
  simp only [v4_eq, v7_eq]
  rfl

/-- A quantized weight. -/
theorem v35_eq (W : (⟨S10x5, .f32⟩ : BufTy).Contents (Elt Ideal)) (j : S10x5.Idx) :
    val_main_v35 (F := Ideal) W j
      = Cert.Spec.fq (Cert.Spec.step (Cert.Spec.least W) (Cert.Spec.greatest W))
          (Cert.Spec.zeroPoint (Cert.Spec.least W) (Cert.Spec.step (Cert.Spec.least W) (Cert.Spec.greatest W))) (W j) := by
  rw [val_main_v35_apply, val_main_v33_apply, val_main_v31_apply, val_main_call5_v4_apply, val_main_call5_v3_apply,
    val_main_cst_10_apply, val_main_call5_v2_apply, val_main_call5_v1_apply, val_main_call5_v0_apply,
    val_main_cst_9_apply, val_main_v30_apply, val_main_v28_apply, val_main_v27_apply, val_main_v26_apply,
    val_main_v29_apply, val_main_v32_apply, val_main_v34_apply]
  simp only [v22_eq, v25_eq]
  rfl

/-! ### The result -/

/-- The reference's result at an index is the specification's quantized linear layer there. -/
theorem ref_out (x : (⟨S8388608x5, .f32⟩ : BufTy).Contents (Elt Ideal)) (W : (⟨S10x5, .f32⟩ : BufTy).Contents (Elt Ideal))
    (b : (⟨S10, .f32⟩ : BufTy).Contents (Elt Ideal)) (i : S8388608x10.Idx) :
    val_main_v39 (F := Ideal) x W b i
      = Cert.Spec.out (Cert.Spec.least x) (Cert.Spec.greatest x) (Cert.Spec.least W) (Cert.Spec.greatest W) x W b (i 0) (i 1) := by
  have el : ∀ k : Fin 5, lidx_main_v36 i k = ix2 (i 0) k := fun k => funext fun a => Fin.ext (by
    match a with
    | ⟨0, _⟩ => rfl
    | ⟨1, _⟩ => rfl)
  have er : ∀ k : Fin 5, ridx_main_v36 i k = ix2 (i 1) k := fun k => funext fun a => Fin.ext (by
    match a with
    | ⟨0, _⟩ => rfl
    | ⟨1, _⟩ => rfl)
  have eb : idx_main_v37 (idx_main_v38 i) = ix1 (i 1) := funext fun a => Fin.ext (by
    match a with
    | ⟨0, _⟩ => rfl)
  rw [val_main_v39_apply, val_main_v36_apply, val_main_v38_apply, val_main_v37_apply, eb]
  unfold Cert.Spec.out
  refine congrArg₂ (· + ·) (Finset.sum_congr rfl fun k _ => ?_) rfl
  rw [v17_eq, v35_eq, el, er]
  rfl

end Cert.RefSpec

end
-- ==== Proof.KernelHost.lean ====
/-
  The host arithmetic between the two kernels, as pure functions, and what each computes.

  From the activations' least and greatest entry, delivered as 1x1 arrays, the host forms the step
  `max ((hi - lo) / 15) 1e-8` and the zero point `round (-lo / step)` and hands both on as 1x1 arrays. The weights
  it quantizes itself: their range by a minimum from `+∞` and a maximum from `-∞` over every entry, their step and
  zero point by the same two formulas, and every entry `v` becomes `(min 15 (max 0 (round (v / s) + z)) - z) * s`.
  The bias vector is handed on as a one-row matrix. Each of the four results is the specification's function of
  the same name.
-/
import proofs.«118362_j48954037240021_1_alg».proof.Proof.Gen.KernelIdeal
import proofs.«118362_j48954037240021_1_alg».proof.Proof.Spec
import proofs.«118362_j48954037240021_1_alg».proof.Proof.RefSpec
import Idealize.ShloMosaic.Lib.Pipeline.Value
import Idealize.ShloMosaic.Lib.ValueIdx
import Idealize.ShloMosaic.Lib.IdealHost
import Idealize.ShloMosaic.PureOps.Reduce
import Idealize.ShloMosaic.PureOps.Ideal.Laws

noncomputable section

namespace Cert.KernelHost

open Cert.KernelIdeal Cert.KernelIdeal.Gen Idealize.ShloMosaic Idealize.ShloMosaic.ValueIdx Idealize.ShloMosaic.StableHlo

/-- An array of f32 extended reals of shape `s`. -/
abbrev T (s : Shape) : Type := (⟨s, .f32⟩ : BufTy).Contents (Elt Ideal)

/-! ### The activations' step and zero point -/

/-- The least entry as a scalar. -/
def loS (lo1 : T S1x1) : T S_ := shapeCast S_ lo1 shapeCasts_S1x1_S_
/-- The greatest entry as a scalar. -/
def hiS (hi1 : T S1x1) : T S_ := shapeCast S_ hi1 shapeCasts_S1x1_S_
/-- The step as a scalar. -/
def stepS (lo1 hi1 : T S1x1) : T S_ :=
  maximumf (F := Ideal) (φ := .f32)
    (Host.divf (F := Ideal) (φ := .f32) (subf (F := Ideal) (φ := .f32) (hiS hi1) (loS lo1))
      (constant (F := Ideal) S_ .f32 0x41700000#32))
    (constant (F := Ideal) S_ .f32 0x322BCC77#32)
/-- The zero point as a scalar. -/
def zeroS (lo1 hi1 : T S1x1) : T S_ :=
  Host.roundeven (F := Ideal) (φ := .f32)
    (Host.divf (F := Ideal) (φ := .f32) (Host.negf (F := Ideal) (φ := .f32) (loS lo1)) (stepS lo1 hi1))
/-- The step as the 1x1 array the matmul kernel reads. -/
def hostStep (lo1 hi1 : T S1x1) : T S1x1 := shapeCast S1x1 (stepS lo1 hi1) shapeCasts_S_S1x1
/-- The zero point as the 1x1 array the matmul kernel reads. -/
def hostZero (lo1 hi1 : T S1x1) : T S1x1 := shapeCast S1x1 (zeroS lo1 hi1) shapeCasts_S_S1x1

/-! ### The quantized weights -/

/-- The weights' least entry. -/
def wLo (W : T S10x5) : T S_ :=
  Host.reduce (FloatOps.minimumf (F := Ideal) (φ := .f32)) W (constant (F := Ideal) S_ .f32 0x7F800000#32) reducesTo_S10x5_S_d0_1 h_S_
/-- The weights' greatest entry. -/
def wHi (W : T S10x5) : T S_ :=
  Host.reduce (FloatOps.maximumf (F := Ideal) (φ := .f32)) W (constant (F := Ideal) S_ .f32 0xFF800000#32) reducesTo_S10x5_S_d0_1 h_S_
/-- The weights' step. -/
def wStepS (W : T S10x5) : T S_ :=
  maximumf (F := Ideal) (φ := .f32)
    (Host.divf (F := Ideal) (φ := .f32) (subf (F := Ideal) (φ := .f32) (wHi W) (wLo W))
      (constant (F := Ideal) S_ .f32 0x41700000#32))
    (constant (F := Ideal) S_ .f32 0x322BCC77#32)
/-- The weights' zero point. -/
def wZeroS (W : T S10x5) : T S_ :=
  Host.roundeven (F := Ideal) (φ := .f32)
    (Host.divf (F := Ideal) (φ := .f32) (Host.negf (F := Ideal) (φ := .f32) (wLo W)) (wStepS W))
/-- The step at every entry. -/
def wStepB (W : T S10x5) : T S10x5 := broadcastInDim S10x5 ![] bcast_S_S10x5 (wStepS W)
/-- The zero point at every entry. -/
def wZeroB (W : T S10x5) : T S10x5 := broadcastInDim S10x5 ![] bcast_S_S10x5 (wZeroS W)
/-- The bottom level 0 at every entry. -/
def botB : T S10x5 := broadcastInDim S10x5 ![] bcast_S_S10x5 (id (constant (F := Ideal) S_ .f32 0x00000000#32))
/-- The top level 15 at every entry. -/
def topB : T S10x5 := broadcastInDim S10x5 ![] bcast_S_S10x5 (id (constant (F := Ideal) S_ .f32 0x41700000#32))
/-- The quantized weights. -/
def hostWq (W : T S10x5) : T S10x5 :=
  mulf (F := Ideal) (φ := .f32)
    (subf (F := Ideal) (φ := .f32)
      (minimumf (F := Ideal) (φ := .f32) topB
        (maximumf (F := Ideal) (φ := .f32) botB
          (addf (F := Ideal) (φ := .f32)
            (Host.roundeven (F := Ideal) (φ := .f32) (Host.divf (F := Ideal) (φ := .f32) W (wStepB W)))
            (wZeroB W))))
      (wZeroB W))
    (wStepB W)

/-! ### The bias -/

/-- The bias as a one-row matrix. -/
def hostBias (b : T S10) : T S1x10 := shapeCast S1x10 b shapeCasts_S10_S1x10

/-! ### What they compute -/

/-- The 1x1 shape has one index. -/
theorem idx_1x1 (j : S1x1.Idx) : j = ix2 0 0 := by
  obtain ⟨p, q, rfl⟩ : ∃ (p : Fin 1) (q : Fin 1), j = ix2 p q := ⟨j 0, j 1, eq_ix2 j⟩
  rw [Subsingleton.elim p 0, Subsingleton.elim q 0]

theorem loS_apply (lo1 : T S1x1) (j : S_.Idx) : loS lo1 j = lo1 (ix2 0 0) := by
  unfold loS shapeCast
  exact congrArg lo1 (idx_1x1 _)

theorem hiS_apply (hi1 : T S1x1) (j : S_.Idx) : hiS hi1 j = hi1 (ix2 0 0) := by
  unfold hiS shapeCast
  exact congrArg hi1 (idx_1x1 _)

theorem stepS_apply (lo1 hi1 : T S1x1) (j : S_.Idx) :
    stepS lo1 hi1 j = Cert.Spec.step (lo1 (ix2 0 0)) (hi1 (ix2 0 0)) := by
  show max (Ideal.div (hiS hi1 j - loS lo1 j) (Ideal.ofBits .f32 0x41700000#32)) (Ideal.ofBits .f32 0x322BCC77#32) = _
  rw [hiS_apply, loS_apply]
  rfl

theorem zeroS_apply (lo1 hi1 : T S1x1) (j : S_.Idx) :
    zeroS lo1 hi1 j = Cert.Spec.zeroPoint (lo1 (ix2 0 0)) (Cert.Spec.step (lo1 (ix2 0 0)) (hi1 (ix2 0 0))) := by
  show Ideal.liftRound Ideal.roundHalfEven (Ideal.div (-(loS lo1 j)) (stepS lo1 hi1 j)) = _
  rw [loS_apply, stepS_apply]
  rfl

/-- The step handed to the matmul kernel. -/
theorem hostStep_apply (lo1 hi1 : T S1x1) :
    hostStep lo1 hi1 (ix2 0 0) = Cert.Spec.step (lo1 (ix2 0 0)) (hi1 (ix2 0 0)) := by
  unfold hostStep shapeCast
  exact stepS_apply lo1 hi1 _

/-- The zero point handed to the matmul kernel. -/
theorem hostZero_apply (lo1 hi1 : T S1x1) :
    hostZero lo1 hi1 (ix2 0 0)
      = Cert.Spec.zeroPoint (lo1 (ix2 0 0)) (Cert.Spec.step (lo1 (ix2 0 0)) (hi1 (ix2 0 0))) := by
  unfold hostZero shapeCast
  exact zeroS_apply lo1 hi1 _

theorem wLo_apply (W : T S10x5) (j : S_.Idx) : wLo W j = Cert.Spec.least W :=
  Cert.RefSpec.reduce_min_total W _ _ _ (fun _ => Cert.RefSpec.posInf) j

theorem wHi_apply (W : T S10x5) (j : S_.Idx) : wHi W j = Cert.Spec.greatest W :=
  Cert.RefSpec.reduce_max_total W _ _ _ (fun _ => Cert.RefSpec.negInf) j

theorem wStepS_apply (W : T S10x5) (j : S_.Idx) :
    wStepS W j = Cert.Spec.step (Cert.Spec.least W) (Cert.Spec.greatest W) := by
  show max (Ideal.div (wHi W j - wLo W j) (Ideal.ofBits .f32 0x41700000#32)) (Ideal.ofBits .f32 0x322BCC77#32) = _
  rw [wHi_apply, wLo_apply]
  rfl

theorem wZeroS_apply (W : T S10x5) (j : S_.Idx) :
    wZeroS W j = Cert.Spec.zeroPoint (Cert.Spec.least W) (Cert.Spec.step (Cert.Spec.least W) (Cert.Spec.greatest W)) := by
  show Ideal.liftRound Ideal.roundHalfEven (Ideal.div (-(wLo W j)) (wStepS W j)) = _
  rw [wLo_apply, wStepS_apply]
  rfl

theorem wStepB_apply (W : T S10x5) (j : S10x5.Idx) :
    wStepB W j = Cert.Spec.step (Cert.Spec.least W) (Cert.Spec.greatest W) :=
  (broadcastInDim_scalar_apply bcast_S_S10x5 (wStepS W) j).trans (wStepS_apply W _)

theorem wZeroB_apply (W : T S10x5) (j : S10x5.Idx) :
    wZeroB W j = Cert.Spec.zeroPoint (Cert.Spec.least W) (Cert.Spec.step (Cert.Spec.least W) (Cert.Spec.greatest W)) :=
  (broadcastInDim_scalar_apply bcast_S_S10x5 (wZeroS W) j).trans (wZeroS_apply W _)

theorem botB_apply (j : S10x5.Idx) : botB j = Cert.Spec.bottom :=
  broadcastInDim_scalar_apply bcast_S_S10x5 _ j

theorem topB_apply (j : S10x5.Idx) : topB j = Cert.Spec.top :=
  broadcastInDim_scalar_apply bcast_S_S10x5 _ j

/-- A quantized weight, at any index. -/
theorem hostWq_apply' (W : T S10x5) (j : S10x5.Idx) :
    hostWq W j
      = Cert.Spec.fq (Cert.Spec.step (Cert.Spec.least W) (Cert.Spec.greatest W))
          (Cert.Spec.zeroPoint (Cert.Spec.least W) (Cert.Spec.step (Cert.Spec.least W) (Cert.Spec.greatest W))) (W j) := by
  show (min (topB j) (max (botB j) (Ideal.liftRound Ideal.roundHalfEven (Ideal.div (W j) (wStepB W j)) + wZeroB W j))
      - wZeroB W j) * wStepB W j = _
  rw [topB_apply, botB_apply, wStepB_apply, wZeroB_apply]
  rfl

/-- A quantized weight at output `o` and feature `k`. -/
theorem hostWq_apply (W : T S10x5) (o : Fin 10) (k : Fin 5) :
    hostWq W (ix2 o k)
      = Cert.Spec.fq (Cert.Spec.step (Cert.Spec.least W) (Cert.Spec.greatest W))
          (Cert.Spec.zeroPoint (Cert.Spec.least W) (Cert.Spec.step (Cert.Spec.least W) (Cert.Spec.greatest W)))
          (W (ix2 o k)) :=
  hostWq_apply' W (ix2 o k)

/-- The bias row's column `o` is the bias's entry `o`: both sit at row-major position `o`. -/
theorem hostBias_apply (b : T S10) (o : Fin 10) : hostBias b (ix2 0 o) = b (ix1 o) := by
  unfold hostBias
  refine shapeCast_apply b shapeCasts_S10_S1x10 (ix2 0 o) (ix1 o) ?_
  rw [Shape.rowMajor_val_one, Shape.rowMajor_val_two]
  show o.val = 0 * 10 + o.val
  omega

end Cert.KernelHost

end
-- ==== Proof.KI.HostGlue.lean ====
/-
  Between the two kernels the host's nine stretches of operations leave, in the four buffers the second kernel
  reads beside the activations, the pure functions of what the first kernel left: the step and the zero point
  of the activations' range, the quantized weights, and the bias as a one-row matrix. Each buffer's contents
  after the last stretch is read back through the stretches, one operation's result at a time, down to the
  contents the stretches started from; what is left is the composition that defines the function.
-/
import proofs.«118362_j48954037240021_1_alg».proof.Proof.KI.Run
import proofs.«118362_j48954037240021_1_alg».proof.Proof.KernelHost
import Idealize.ShloMosaic.Lib.StableHlo.Run

set_option maxRecDepth 16384

noncomputable section

namespace Cert.KernelIdeal.HostGlue

open Cert.KernelIdeal Cert.KernelIdeal.Gen
open Idealize.ShloMosaic Idealize.ShloMosaic.StableHlo Idealize.ShloMosaic.TcCoe Idealize.SL.Sem

variable (aft0 : Run.After0 Ideal) (m : (ℓ : Loc nD τ sig) → Buf (Elt Ideal) ℓ) (c : Dev nD)

set_option maxHeartbeats 4000000 in
/-- The step the second kernel reads. -/
theorem v27_eq :
    Run.V10 aft0 m c main_v27
      = Cert.KernelHost.hostStep (Run.V1 aft0 m c main_v0_0) (Run.V1 aft0 m c main_v0_1) := by
  dsimp only [Run.V10, Run.V1, Run.W10, Run.W9, Run.W8, Run.W7, Run.W6, Run.W5, Run.W4, Run.W3, Run.W2]
  after_results
  rfl

set_option maxHeartbeats 4000000 in
/-- The zero point the second kernel reads. -/
theorem v28_eq :
    Run.V10 aft0 m c main_v28
      = Cert.KernelHost.hostZero (Run.V1 aft0 m c main_v0_0) (Run.V1 aft0 m c main_v0_1) := by
  dsimp only [Run.V10, Run.V1, Run.W10, Run.W9, Run.W8, Run.W7, Run.W6, Run.W5, Run.W4, Run.W3, Run.W2]
  after_results
  rfl

set_option maxHeartbeats 4000000 in
/-- The quantized weights the second kernel reads. -/
theorem v26_eq :
    Run.V10 aft0 m c main_v26 = Cert.KernelHost.hostWq (Run.V1 aft0 m c main_arg1) := by
  dsimp only [Run.V10, Run.V1, Run.W10, Run.W9, Run.W8, Run.W7, Run.W6, Run.W5, Run.W4, Run.W3, Run.W2]
  after_results
  rfl

set_option maxHeartbeats 4000000 in
/-- The bias row the second kernel reads. -/
theorem v29_eq :
    Run.V10 aft0 m c main_v29 = Cert.KernelHost.hostBias (Run.V1 aft0 m c main_arg2) := by
  dsimp only [Run.V10, Run.V1, Run.W10, Run.W9, Run.W8, Run.W7, Run.W6, Run.W5, Run.W4, Run.W3, Run.W2]
  after_results
  rfl

end Cert.KernelIdeal.HostGlue

end
-- ==== Proof.KernelPoint.lean ====
/-
  The matmul kernel's arithmetic, read at one entry of its output block.

  A block of 8192 rows of the activations is quantized entry by entry at the step and the zero point the
  kernel is handed as 1x1 arrays: `(min 15 (max 0 (round (v / s) + z)) - z) * s`, which is the
  specification's `fq s z v`. The matrix product against the already quantized weights, accumulated from
  zero, contracts the one shared axis of five features: at row `p` and output `o` it is the sum over `k` of
  the quantized activation at `(p, k)` times the weight at `(o, k)`. The bias row is broadcast down the
  rows, so its column `o` is added.
-/
import proofs.«118362_j48954037240021_1_alg».proof.Proof.Gen.KernelIdeal.Skeleton
import proofs.«118362_j48954037240021_1_alg».proof.Proof.Spec
import Idealize.ShloMosaic.Lib.Pipeline.Value
import Idealize.ShloMosaic.Lib.ValueIdx
import Idealize.ShloMosaic.PureOps.Ideal.Laws

noncomputable section

namespace Cert.KernelPoint

open Cert.KernelIdeal Cert.KernelIdeal.Gen Idealize.ShloMosaic Idealize.ShloMosaic.ValueIdx

/-- The one entry of a 1x1 array, extracted at position `[0, 0]`. -/
theorem extract_1x1 (v : FVec Ideal S1x1 .f32) : extractAt ![0, 0] v inpos_S1x1_p0_0 = v (ix2 0 0) :=
  congrArg v (funext fun a => by
    match a with
    | ⟨0, _⟩ => rfl
    | ⟨1, _⟩ => rfl)

/-- The quantization of a block at step `s` and zero point `z`, read at an index: the specification's `fq`. -/
theorem quant_apply (s z : Ideal .f32) (v6 : Vec Ideal S8192x5 .f32) (j : S8192x5.Idx) :
    (mulf
        (subf
          (minimumf (broadcast S8192x5 (FloatOps.ofBits (F := Ideal) .f32 0x41700000#32))
            (maximumf (broadcast S8192x5 (FloatOps.ofBits (F := Ideal) .f32 0x00000000#32))
              (addf (roundeven (divf v6 (broadcast S8192x5 s))) (broadcast S8192x5 z))))
          (broadcast S8192x5 z))
        (broadcast S8192x5 s) : FVec Ideal S8192x5 .f32) j
      = Cert.Spec.fq s z (v6 j) := rfl

/-- The coordinates the contraction's term reads, axis by axis: the left operand's row is the result's row and
    the right operand's row is the result's column; the second coordinate of both is the contraction's. -/
theorem lhs_0 (i : S8192x10.Idx) (q : dot_S8192x5_S10x5_S8192x10_1_1_0_0_n_n.contr.Idx) :
    (dot_S8192x5_S10x5_S8192x10_1_1_0_0_n_n.lhsIdx i q 0).val = (i 0).val := by
  unfold DotDims.lhsIdx
  rw [dif_neg (show ¬(0 : Fin S8192x5.rank) ∈ dot_S8192x5_S10x5_S8192x10_1_1_0_0_n_n.lhsBatch by decide),
    dif_pos (show (0 : Fin S8192x5.rank) ∈ dot_S8192x5_S10x5_S8192x10_1_1_0_0_n_n.lhsNonContracting by decide)]
  rfl
theorem lhs_1 (i : S8192x10.Idx) (q : dot_S8192x5_S10x5_S8192x10_1_1_0_0_n_n.contr.Idx) :
    (dot_S8192x5_S10x5_S8192x10_1_1_0_0_n_n.lhsIdx i q 1).val = (q ⟨0, by decide⟩).val :=
  dot_S8192x5_S10x5_S8192x10_1_1_0_0_n_n.lhsIdx_val_of_single rfl i q
theorem rhs_0 (i : S8192x10.Idx) (q : dot_S8192x5_S10x5_S8192x10_1_1_0_0_n_n.contr.Idx) :
    (dot_S8192x5_S10x5_S8192x10_1_1_0_0_n_n.rhsIdx i q 0).val = (i 1).val := by
  unfold DotDims.rhsIdx
  rw [dif_neg (show ¬(0 : Fin S10x5.rank) ∈ dot_S8192x5_S10x5_S8192x10_1_1_0_0_n_n.rhsBatch by decide),
    dif_pos (show (0 : Fin S10x5.rank) ∈ dot_S8192x5_S10x5_S8192x10_1_1_0_0_n_n.rhsNonContracting by decide)]
  rfl
theorem rhs_1 (i : S8192x10.Idx) (q : dot_S8192x5_S10x5_S8192x10_1_1_0_0_n_n.contr.Idx) :
    (dot_S8192x5_S10x5_S8192x10_1_1_0_0_n_n.rhsIdx i q 1).val = (q ⟨0, by decide⟩).val :=
  dot_S8192x5_S10x5_S8192x10_1_1_0_0_n_n.rhsIdx_val_of_single rfl i q

/-- The left operand's index of term `k` at `(p, o)` is `(p, k)`. -/
theorem lhs_idx (p : Fin 8192) (o : Fin 10) (k : Fin 5) :
    dot_S8192x5_S10x5_S8192x10_1_1_0_0_n_n.lhsIdx (ix2 p o)
        ((contrEquiv1 dot_S8192x5_S10x5_S8192x10_1_1_0_0_n_n 5 rfl rfl).symm k) = ix2 p k := by
  have hk := contrEquiv1_symm_val dot_S8192x5_S10x5_S8192x10_1_1_0_0_n_n 5 rfl rfl k
  exact funext fun a => Fin.ext (by
    match a with
    | ⟨0, _⟩ => exact lhs_0 _ _
    | ⟨1, _⟩ => exact (lhs_1 _ _).trans hk)

/-- The right operand's index of term `k` at `(p, o)` is `(o, k)`. -/
theorem rhs_idx (p : Fin 8192) (o : Fin 10) (k : Fin 5) :
    dot_S8192x5_S10x5_S8192x10_1_1_0_0_n_n.rhsIdx (ix2 p o)
        ((contrEquiv1 dot_S8192x5_S10x5_S8192x10_1_1_0_0_n_n 5 rfl rfl).symm k) = ix2 o k := by
  have hk := contrEquiv1_symm_val dot_S8192x5_S10x5_S8192x10_1_1_0_0_n_n 5 rfl rfl k
  exact funext fun a => Fin.ext (by
    match a with
    | ⟨0, _⟩ => exact rhs_0 _ _
    | ⟨1, _⟩ => exact (rhs_1 _ _).trans hk)

/-- A product accumulated from zero, at row `p` and output `o`: the sum over the five features. -/
theorem matmul_zero_apply (A : FVec Ideal S8192x5 .f32) (B : FVec Ideal S10x5 .f32) (p : Fin 8192) (o : Fin 10) :
    matmul dot_S8192x5_S10x5_S8192x10_1_1_0_0_n_n (some .fp32) A B (constant S8192x10 .f32 0x00000000#32) (ix2 p o)
      = ∑ k : Fin 5, A (ix2 p k) * B (ix2 o k) := by
  refine (Ideal.matmul_constant_zero_apply _ _ _ _ _).trans ?_
  rw [← Equiv.sum_comp (contrEquiv1 dot_S8192x5_S10x5_S8192x10_1_1_0_0_n_n 5 rfl rfl).symm]
  refine Finset.sum_congr rfl fun k _ => ?_
  rw [lhs_idx, rhs_idx]

/-- The bias row broadcast down the 8192 rows reads its column. -/
theorem bias_apply (v23 : Vec Ideal S1x10 .f32) (p : Fin 8192) (o : Fin 10) :
    broadcastTo S8192x10 v23 broadcasts_S1x10_S8192x10 (ix2 p o) = v23 (ix2 0 o) :=
  broadcastTo_apply v23 broadcasts_S1x10_S8192x10 (ix2 p o) (ix2 0 o) (fun a => by
    match a with
    | ⟨0, _⟩ => show 0 = if (1 : Nat) = 1 then 0 else _; rw [if_pos rfl]
    | ⟨1, _⟩ => show o.val = if (10 : Nat) = 1 then 0 else o.val; rw [if_neg (by decide)])

/-- The matmul kernel's stored block at row `p` and output `o`. -/
theorem k1_pay1_apply (v0 v3 : Vec Ideal S1x1 .f32) (v6 : Vec Ideal S8192x5 .f32) (v20 : Vec Ideal S10x5 .f32)
    (v23 : Vec Ideal S1x10 .f32) (p : Fin 8192) (o : Fin 10) :
    k1_pay1 (F := Ideal) v0 v3 v6 v20 v23 (ix2 p o)
      = (∑ k : Fin 5, Cert.Spec.fq (v0 (ix2 0 0)) (v3 (ix2 0 0)) (v6 (ix2 p k)) * v20 (ix2 o k)) + v23 (ix2 0 o) := by
  unfold k1_pay1
  simp only [shapeCast_self]
  refine (addf_apply _ _ _).trans ?_
  rw [matmul_zero_apply, bias_apply]
  refine congrArg₂ (· + ·) (Finset.sum_congr rfl fun k _ => ?_) rfl
  rw [quant_apply, extract_1x1, extract_1x1]

end Cert.KernelPoint

end
-- ==== Proof.KI.Value.lean ====
/-
  The kernel's result over the extended reals, as one function of the three arguments.

  The second pallas_call leaves row `r`, column `o` of the result at the sum over the five features of the
  quantized activation times the quantized weight, plus the bias — read from the buffers it finds: the step and
  the zero point the host operations computed from the first pallas_call's two results, the weights they
  quantized, the bias they reshaped. The first pallas_call's results are the least and the greatest entry of the
  activations. Put together, the result is `Cert.Spec.out` of the arguments.
-/
import proofs.«118362_j48954037240021_1_alg».proof.Proof.KI.Value0
import proofs.«118362_j48954037240021_1_alg».proof.Proof.KI.Value1
import proofs.«118362_j48954037240021_1_alg».proof.Proof.KI.HostGlue
import proofs.«118362_j48954037240021_1_alg».proof.Proof.KernelPoint
import proofs.«118362_j48954037240021_1_alg».proof.Proof.KernelHost

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first pallas_call's body, as the run takes it. -/
abbrev aft : Run.After0 Ideal := Body0.aft0

/-- The weights and the bias are untouched by the first pallas_call. -/
theorem V1_arg1 (c : Dev nD) : Run.V1 aft m c main_arg1 = m ((c : Thread nD τ).loc main_arg1) :=
  Run.W1_of_ne aft m c main_arg1 (by decide)
theorem V1_arg2 (c : Dev nD) : Run.V1 aft m c main_arg2 = m ((c : Thread nD τ).loc main_arg2) :=
  Run.W1_of_ne aft m c main_arg2 (by decide)

/-- The second pallas_call finds the activations as launched. -/
theorem V10_arg0 (c : Dev nD) : Run.V10 aft m c main_arg0 = m ((c : Thread nD τ).loc main_arg0) :=
  (Run.W10_of aft m c main_arg0 (by decide) (by decide) (by decide) (by decide) (by decide) (by decide) (by decide) (by decide) (by decide)).trans
    ((Run.W1_arr aft m c 0).trans (((Run.dat0 (Run.V0 m) c (aft (Run.V0 m) c)).arrAt_in 0 rfl _).trans (Run.A_eq0 (Run.V0 m) c _ 0)))

/-- The first pallas_call's two results: the running minimum and maximum after the last point. -/
theorem V1_lo (c : Dev nD) : Run.V1 aft m c main_v0_0 = Fr0.accMin (Run.V0 m) c 511 Val0.last_lt :=
  (Run.W1_arr aft m c 1).trans (Val0.final_min (Run.V0 m) c)
theorem V1_hi (c : Dev nD) : Run.V1 aft m c main_v0_1 = Fr0.accMax (Run.V0 m) c 511 Val0.last_lt :=
  (Run.W1_arr aft m c 2).trans (Val0.final_max (Run.V0 m) c)

/-- THE RESULT: row `r`, column `o` of the array the kernel returns is the specification of its arguments there. -/
theorem result (c : Dev nD) (r : Fin 8388608) (o : Fin 10) :
    Run.W11 aft m c (Proc.devRef .tc main_v30) (ix2 r o)
      = Cert.Spec.out (Cert.Spec.least (m ((c : Thread nD τ).loc main_arg0))) (Cert.Spec.greatest (m ((c : Thread nD τ).loc main_arg0)))
          (Cert.Spec.least (m ((c : Thread nD τ).loc main_arg1))) (Cert.Spec.greatest (m ((c : Thread nD τ).loc main_arg1)))
          (m ((c : Thread nD τ).loc main_arg0)) (m ((c : Thread nD τ).loc main_arg1)) (m ((c : Thread nD τ).loc main_arg2)) r o := by
  rw [Run.result_eq, Val1.final5 (Run.V10 aft m) Cert.KernelPoint.k1_pay1_apply c]
  show (∑ k : Fin 5, Cert.Spec.fq (Run.V10 aft m c main_v27 (ix2 0 0)) (Run.V10 aft m c main_v28 (ix2 0 0))
        (Run.V10 aft m c main_arg0 (ix2 r k)) * Run.V10 aft m c main_v26 (ix2 o k)) + Run.V10 aft m c main_v29 (ix2 0 o) = _
  unfold Cert.Spec.out
  rw [HostGlue.v27_eq, HostGlue.v28_eq, HostGlue.v29_eq, Cert.KernelHost.hostStep_apply, Cert.KernelHost.hostZero_apply,
    Cert.KernelHost.hostBias_apply, V1_lo, V1_hi, Val0.min_value, Val0.max_value, V1_arg2]
  refine congrArg (· + _) (Finset.sum_congr rfl fun k _ => ?_)
  rw [V10_arg0, HostGlue.v26_eq, Cert.KernelHost.hostWq_apply, V1_arg1]

/-- The kernel's run with its result named: every weakly fair execution terminates, the result array is the
    specification of the arguments, and the arguments end as launched. -/
theorem run : θ_run defs (onTc (τ := τ) (main (F := Ideal))) ⟨m, fun _ => 0, ρ⟩ (fun r => ∀ c : Dev nD,
      r.2.mem ((c.tc : Thread nD τ).loc main_v30) = (fun i : S8388608x10.Idx =>
          Cert.Spec.out (Cert.Spec.least (m ((c : Thread nD τ).loc main_arg0))) (Cert.Spec.greatest (m ((c : Thread nD τ).loc main_arg0)))
            (Cert.Spec.least (m ((c : Thread nD τ).loc main_arg1))) (Cert.Spec.greatest (m ((c : Thread nD τ).loc main_arg1)))
            (m ((c : Thread nD τ).loc main_arg0)) (m ((c : Thread nD τ).loc main_arg1)) (m ((c : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (Run.mem_uc main_v30 (by decide))).trans (funext fun i => by
        obtain ⟨r, o, rfl⟩ : ∃ (r : Fin 8388608) (o : Fin 10), i = ix2 r o := ⟨i 0, i 1, eq_ix2 i⟩
        exact result m c r o),
     (h c _ (Run.mem_uc main_arg0 (by decide))).trans (Run.W11_main_arg0 aft m c),
     (h c _ (Run.mem_uc main_arg1 (by decide))).trans (Run.W11_main_arg1 aft m c),
     (h c _ (Run.mem_uc main_arg2 (by decide))).trans (Run.W11_main_arg2 aft m c)⟩) (Run.run_all aft m ρ Body0.hbody0)

end Cert.KernelIdeal.Val

end
-- ==== Proof.lean ====
/-
  The claim: the quantized linear layer as two pallas_calls equals its plain reference over the extended reals.

  Both programs quantize the activations and the weights to sixteen levels between each tensor's least and
  greatest entry, multiply the quantized activations by the transposed quantized weights and add the bias
  (`Cert.Spec.out`). The kernel finds the activations' range with a first pallas_call that keeps a running
  minimum and maximum over 512 row blocks, quantizes the weights and computes the step and the zero point in
  host operations, and does the rest in a second pallas_call over 1024 row blocks; the reference does every
  step on whole arrays. The two agree because the least entry of an array is the running minimum of its blocks'
  least entries (likewise the greatest), and because every other operation is the same function of the same
  entries, block by block or all at once. No step needs the entries to be finite.

  The frames: each kernel program terminates, faults nowhere and leaves its arguments as launched, by the run of
  its eleven segments (two pallas_calls, nine host stretches) under each pallas_call's body obligation — at the
  word level and over the extended reals alike; the reference's frame is its run with the result dropped. The
  idealization rewrote nothing, so `preserves` is trivial.
-/
import proofs.«118362_j48954037240021_1_alg».proof.Defs
import proofs.«118362_j48954037240021_1_alg».proof.Proof.Gen.Kernel
import proofs.«118362_j48954037240021_1_alg».proof.Proof.Gen.KernelIdeal
import proofs.«118362_j48954037240021_1_alg».proof.Proof.Gen.ReferenceIdeal
import proofs.«118362_j48954037240021_1_alg».proof.Proof.Gen.Pre_finite_inputs
import proofs.«118362_j48954037240021_1_alg».proof.Proof.Gen.ReferenceIdeal.Run
import proofs.«118362_j48954037240021_1_alg».proof.Proof.Gen.ReferenceIdeal.Read
import proofs.«118362_j48954037240021_1_alg».proof.Proof.K.Body0
import proofs.«118362_j48954037240021_1_alg».proof.Proof.KI.Body0
import proofs.«118362_j48954037240021_1_alg».proof.Proof.KI.Value
import proofs.«118362_j48954037240021_1_alg».proof.Proof.RefSpec
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel (hKernel := Cert.Kernel.Gen.facts) (hPre_finite_inputs := Cert.Pre_finite_inputs.Gen.facts) :=
  fun m ρ _ => Cert.Kernel.Body0.frame m ρ

/-- So does the kernel over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Body0.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, run from memories that agree on the arguments, end with the specification of those arguments in
    their result arrays: the kernel by its run with the result named, the reference by its run read one operation
    at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2.1, (hagree c).2.2]
  exact funext fun i => Cert.RefSpec.ref_out _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
